-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S128x256 : Shape := ⟨2, ![128, 256]⟩
abbrev S256 : Shape := ⟨1, ![256]⟩
abbrev S128x2 : Shape := ⟨2, ![128, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S2 .f32) (main_arg13 : FVec F S2x1 .f32) (main_arg14 : FVec F S1 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S2x1 .f32 := Host.absf main_arg13
  let main_cst_22 : FVec F S_ .f32 := constant S_ .f32 0x7F800000#32
  let main_v60 : FVec F S2x1 .f32 := broadcastInDim S2x1 ![] bcast_S_S2x1 main_cst_22
  let main_v61 : IVec S2x1 1 := cmpf .olt main_v59 main_v60
  let main_c_23 : IVec S_ 1 := constantI S_ 1 1#1
  let main_v62 : IVec S_ 1 := (fun x v => Host.reduce IntOp.andi x v reducesTo_S2x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S256 .f32) (main_arg9 : FVec F S256x128 .f32) (main_arg10 : FVec F S128 .f32) (main_arg11 : FVec F S128x2 .f32) (main_arg12 : FVec F S2 .f32) (main_arg13 : FVec F S2x1 .f32) (main_arg14 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_arg13 main_arg14 main_v48 main_v49 main_v50

def fn_part1 {F : FTy → Type} [FloatOps F] (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S128x2 .f32) (main_arg12 : FVec F S2 .f32) (main_arg13 : FVec F S2x1 .f32) (main_arg14 : FVec F S1 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x256 .f32) (main_arg1 : IVec S2x800000 32) (main_arg2 : FVec F S50000x128 .f32) (main_arg3 : FVec F S50000x256 .f32) (main_arg4 : FVec F S50000x128 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S128x2 .f32) (main_arg12 : FVec F S2 .f32) (main_arg13 : FVec F S2x1 .f32) (main_arg14 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x128 .f32 := Host.absf main_arg4
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S128x256 : Shape := ⟨2, ![128, 256]⟩
abbrev S256 : Shape := ⟨1, ![256]⟩
abbrev S128x2 : Shape := ⟨2, ![128, 2]⟩
abbrev S2 : Shape := ⟨1, ![2]⟩
abbrev S2x1 : Shape := ⟨2, ![2, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S850000x256 : Shape := ⟨2, ![850000, 256]⟩
abbrev S1x256 : Shape := ⟨2, ![1, 256]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩
abbrev S50000x1 : Shape := ⟨2, ![50000, 1]⟩
abbrev S2000x1 : Shape := ⟨2, ![2000, 1]⟩
abbrev S1x1 : Shape := ⟨2, ![1, 1]⟩

abbrev nBuf : Space → Nat
  | .hbm => 142
  | .vmem => 56
  | .smem => 0
  | _ => 0

abbrev hbmTy0_0 (i : Nat) : BufTy := match i % 128 with
  | 0 => ⟨S50000x256, .f32⟩
  | 1 => ⟨S2x800000, .i32⟩
  | 2 => ⟨S50000x128, .f32⟩
  | 3 => ⟨S50000x256, .f32⟩
  | 4 => ⟨S50000x128, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x2, .f32⟩
  | 12 => ⟨S2, .f32⟩
  | 13 => ⟨S2x1, .f32⟩
  | 14 => ⟨S1, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x256, .f32⟩
  | 68 => ⟨S850000x1, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x256, .f32⟩
  | 78 => ⟨S850000x256, .f32⟩
  | 79 => ⟨S850000x256, .f32⟩
  | 80 => ⟨S_, .f32⟩
  | 81 => ⟨S50000x256, .f32⟩
  | 82 => ⟨S850000x1, .i32⟩
  | 83 => ⟨S50000x256, .f32⟩
  | 84 => ⟨S1x256, .f32⟩
  | 85 => ⟨S50000x256, .f32⟩
  | 86 => ⟨S50000x128, .f32⟩
  | 87 => ⟨S850000x1, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x128, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S50000x128, .f32⟩
  | 105 => ⟨S50000x2, .f32⟩
  | 106 => ⟨S850000x1, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x2, .f32⟩
  | 116 => ⟨S850000x2, .f32⟩
  | 117 => ⟨S850000x2, .f32⟩
  | 118 => ⟨S_, .f32⟩
  | 119 => ⟨S50000x2, .f32⟩
  | 120 => ⟨S850000x1, .i32⟩
  | 121 => ⟨S50000x2, .f32⟩
  | 122 => ⟨S1x2, .f32⟩
  | 123 => ⟨S50000x2, .f32⟩
  | 124 => ⟨S50000x1, .f32⟩
  | 125 => ⟨S850000x1, .f32⟩
  | 126 => ⟨S_, .i32⟩
  | 127 => ⟨S850000, .i32⟩
  | _ => ⟨S50000x256, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x1, .f32⟩
  | 7 => ⟨S850000x1, .f32⟩
  | 8 => ⟨S_, .f32⟩
  | 9 => ⟨S50000x1, .f32⟩
  | 10 => ⟨S850000x1, .i32⟩
  | 11 => ⟨S50000x1, .f32⟩
  | 12 => ⟨S1x1, .f32⟩
  | 13 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x2, .f32⟩
  | .local _ .vmem, ⟨39, _⟩ => ⟨S2000x2, .f32⟩
  | .local _ .vmem, ⟨40, _⟩ => ⟨S2000x2, .f32⟩
  | .local _ .vmem, ⟨41, _⟩ => ⟨S2000x2, .f32⟩
  | .local _ .vmem, ⟨42, _⟩ => ⟨S2000x2, .f32⟩
  | .local _ .vmem, ⟨43, _⟩ => ⟨S1x2, .f32⟩
  | .local _ .vmem, ⟨44, _⟩ => ⟨S2000x2, .f32⟩
  | .local _ .vmem, ⟨45, _⟩ => ⟨S2000x2, .f32⟩
  | .local _ .vmem, ⟨46, _⟩ => ⟨S2000x2, .f32⟩
  | .local _ .vmem, ⟨47, _⟩ => ⟨S2000x2, .f32⟩
  | .local _ .vmem, ⟨48, _⟩ => ⟨S2x1, .f32⟩
  | .local _ .vmem, ⟨49, _⟩ => ⟨S2000x1, .f32⟩
  | .local _ .vmem, ⟨50, _⟩ => ⟨S2000x1, .f32⟩
  | .local _ .vmem, ⟨51, _⟩ => ⟨S2000x1, .f32⟩
  | .local _ .vmem, ⟨52, _⟩ => ⟨S2000x1, .f32⟩
  | .local _ .vmem, ⟨53, _⟩ => ⟨S1x1, .f32⟩
  | .local _ .vmem, ⟨54, _⟩ => ⟨S2000x1, .f32⟩
  | .local _ .vmem, ⟨55, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_15 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_16 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x2 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  natLt_1_32 : 1 < 32
  inb_S128x256_S128x256_0_0 : ∀ a, (![0, 0] : Fin 2 → Nat) a + S128x256.size a ≤ S128x256.size a
  h_S128x256 : 0 < S128x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2x1_S2x1_0_0 : ∀ a, (![0, 0] : Fin 2 → Nat) a + S2x1.size a ≤ S2x1.size a
  h_S2x1 : 0 < S2x1.numel
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x128_S128x2_S2000x2_1_0_0_1_n_n_wf : DotDims.WF S2000x128 S128x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  dot_S2000x2_S2x1_S2000x1_1_0_0_1_n_n_wf : DotDims.WF S2000x2 S2x1 S2000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x2.size a ≤ S50000x2.size a
  hwx6_2 : ∀ i : grid6.Coords, EltTy.bits .f32 = 32 ∨ (Rect.block (s := S50000x2) S2000x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x2.size a ≤ S50000x2.size a
  hwx7_0 : ∀ i : grid7.Coords, EltTy.bits .f32 = 32 ∨ (Rect.block (s := S50000x2) S2000x2.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x2.size a ≤ S1x2.size a
  hwx7_1 : ∀ i : grid7.Coords, EltTy.bits .f32 = 32 ∨ (Rect.block (s := S1x2) S1x2.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x2.size a ≤ S50000x2.size a
  hwx7_2 : ∀ i : grid7.Coords, EltTy.bits .f32 = 32 ∨ (Rect.block (s := S50000x2) S2000x2.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x2.size a ≤ S50000x2.size a
  hwx8_0 : ∀ i : grid8.Coords, EltTy.bits .f32 = 32 ∨ (Rect.block (s := S50000x2) S2000x2.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2x1.size a ≤ S2x1.size a
  hwx8_1 : ∀ i : grid8.Coords, EltTy.bits .f32 = 32 ∨ (Rect.block (s := S2x1) S2x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .f32 = 32 ∨ (Rect.block (s := S50000x1) S2000x1.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x1.size a ≤ S50000x1.size a
  hwx9_0 : ∀ i : grid9.Coords, EltTy.bits .f32 = 32 ∨ (Rect.block (s := S50000x1) S2000x1.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x1.size a ≤ S1x1.size a
  hwx9_1 : ∀ i : grid9.Coords, EltTy.bits .f32 = 32 ∨ (Rect.block (s := S1x1) S1x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def dot_S2000x2_S2x1_S2000x1_1_0_0_1_n_n : DotDims S2000x2 S2x1 S2000x1 where
  lhsContracting := [1]
  rhsContracting := [0]
  lhsNonContracting := [0]
  rhsNonContracting := [1]
  lhsBatch := []
  rhsBatch := []
  wf := dot_S2000x2_S2x1_S2000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v74) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S2000x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S2000x2.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S2000x2.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S2000x2.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S2x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S2000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v103) S2000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S1x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S2000x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S128x256 : Shape := ⟨2, ![128, 256]⟩
abbrev S256 : Shape := ⟨1, ![256]⟩
abbrev S128x2 : Shape := ⟨2, ![128, 2]⟩
abbrev S2 : Shape := ⟨1, ![2]⟩
abbrev S2x1 : Shape := ⟨2, ![2, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩
abbrev S50000x1 : Shape := ⟨2, ![50000, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S50000x256, .f32⟩
  | 1 => ⟨S2x800000, .i32⟩
  | 2 => ⟨S50000x128, .f32⟩
  | 3 => ⟨S50000x256, .f32⟩
  | 4 => ⟨S50000x128, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x2, .f32⟩
  | 12 => ⟨S2, .f32⟩
  | 13 => ⟨S2x1, .f32⟩
  | 14 => ⟨S1, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x256, .f32⟩
  | 80 => ⟨S850000x1, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x256, .f32⟩
  | 90 => ⟨S850000x256, .f32⟩
  | 91 => ⟨S850000x256, .f32⟩
  | 92 => ⟨S_, .f32⟩
  | 93 => ⟨S50000x256, .f32⟩
  | 94 => ⟨S850000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S_, .f32⟩
  | 103 => ⟨S50000x256, .f32⟩
  | 104 => ⟨S50000x256, .i1⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x128, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x256, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x2, .f32⟩
  | 14 => ⟨S850000x1, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x2, .f32⟩
  | 24 => ⟨S850000x2, .f32⟩
  | 25 => ⟨S850000x2, .f32⟩
  | 26 => ⟨S_, .f32⟩
  | 27 => ⟨S50000x2, .f32⟩
  | 28 => ⟨S850000x1, .i32⟩
  | 29 => ⟨S50000x2, .f32⟩
  | 30 => ⟨S1x2, .f32⟩
  | 31 => ⟨S50000x2, .f32⟩
  | 32 => ⟨S50000x2, .f32⟩
  | 33 => ⟨S_, .f32⟩
  | 34 => ⟨S50000x2, .f32⟩
  | 35 => ⟨S50000x2, .f32⟩
  | 36 => ⟨S50000x1, .f32⟩
  | 37 => ⟨S850000x1, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x1, .f32⟩
  | 47 => ⟨S850000x1, .f32⟩
  | 48 => ⟨S_, .f32⟩
  | 49 => ⟨S50000x1, .f32⟩
  | 50 => ⟨S850000x1, .i32⟩
  | 51 => ⟨S50000x1, .f32⟩
  | 52 => ⟨S1x1, .f32⟩
  | 53 => ⟨S50000x1, .f32⟩
  | 54 => ⟨S50000x1, .f32⟩
  | 55 => ⟨S_, .f32⟩
  | 56 => ⟨S50000x1, .f32⟩
  | 57 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call0_cst : Ref sig .tc := ⟨.hbm, 68, rfl⟩
abbrev main_call0_v0 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call1_cst : Ref sig .tc := ⟨.hbm, 99, rfl⟩
abbrev main_call1_v0 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_14 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call2_cst : Ref sig .tc := ⟨.hbm, 130, rfl⟩
abbrev main_call2_v0 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_18 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_19 : Ref sig .tc := ⟨.hbm, 143, rfl⟩
abbrev main_v101 : Ref sig .tc := ⟨.hbm, 144, rfl⟩
abbrev main_v102 : Ref sig .tc := ⟨.hbm, 145, rfl⟩
abbrev main_c_20 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_21 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call3_cst : Ref sig .tc := ⟨.hbm, 161, rfl⟩
abbrev main_call3_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_22 : Ref sig .tc := ⟨.hbm, 166, rfl⟩
abbrev main_v119 : Ref sig .tc := ⟨.hbm, 167, rfl⟩
abbrev main_v120 : Ref sig .tc := ⟨.hbm, 168, rfl⟩
abbrev main_c_23 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_24 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_call4_cst : Ref sig .tc := ⟨.hbm, 183, rfl⟩
abbrev main_call4_v0 : Ref sig .tc := ⟨.hbm, 184, rfl⟩
abbrev main_v133 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  dot_S50000x2_S2x1_S50000x1_1_0_0_1_n_n_wf : DotDims.WF S50000x2 S2x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def dot_S50000x2_S2x1_S50000x1_1_0_0_1_n_n : DotDims S50000x2 S2x1 S50000x1 where
  lhsContracting := [1]
  rhsContracting := [0]
  lhsNonContracting := [0]
  rhsNonContracting := [1]
  lhsBatch := []
  rhsBatch := []
  wf := dot_S50000x2_S2x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KernelRun.lean ====
/-
  The kernel program's run with its result named. The program is ten regions among stretches of host operations; the
  contents of the TensorCore's buffers at each boundary between them are a fold from the launch memory: a stretch
  applies its operations, a region leaves in each of its arrays what its write-backs leave. Every weakly fair execution
  terminates, without a fault, with the result buffer at what that fold ends with in it and with the argument arrays as
  launched. What the fold ends with, as a function of the arguments, is worked out elsewhere; here only the run.
-/
import proofs.«151999_j8959301779746_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents of it, the arguments as launched. -/
theorem run_named : θ_run defs (onTc (τ := τ) (main (F := F))) ⟨m, fun _ => 0, ρ⟩ (fun r => ∀ c : Dev nD,
      r.2.mem ((c.tc : Thread nD τ).loc main_v105) = W16 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v105 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Named

end
-- ==== Proof.Carry.lean ====
/- Buffers that ride through the program untouched. After the first stretch of host operations nothing writes the edge
  endpoints with their self-loops (source and destination lists), the per-edge normalisation, or any argument array: a
  later stretch writes only its own results, and a region writes only its output array. So at every later boundary each
  of them still holds what it held when the first region was entered, and an argument holds what it was launched with.
  For each boundary the buffers still needed from there on are listed, and each step is shown to leave every buffer of
  its list alone: a region because none of the list is among its arrays, a stretch because none is among the references
  its operations write.
-/
import proofs.«151999_j8959301779746_1_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## What each stretch of host operations writes -/

/-- The references the operations of stretch 0 write: one result each. -/
abbrev written0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem written0_sub : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of stretch 1 write: one result each. -/
abbrev written1 : List (Ref sig .tc) := [main_v28, main_c_4, main_v29, main_v30, main_c_5, main_v31, main_v32, main_v33, main_v34, main_v35, main_v36, main_v37, main_cst_6, main_v38, main_v39, main_v40, main_v41]
theorem written1_sub : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of stretch 3 write: one result each. -/
abbrev written3 : List (Ref sig .tc) := [main_v44, main_c_7, main_v45, main_v46, main_c_8, main_v47, main_v48, main_v49, main_v50, main_v51, main_v52, main_v53, main_cst_9, main_v54, main_v55, main_v56, main_v57]
theorem written3_sub : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of stretch 5 write: one result each. -/
abbrev written5 : List (Ref sig .tc) := [main_v60, main_c_10, main_v61, main_v62, main_c_11, main_v63, main_v64, main_v65, main_v66, main_v67, main_v68, main_v69, main_cst_12, main_v70, main_v71, main_v72, main_v73]
theorem written5_sub : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of stretch 7 write: one result each. -/
abbrev written7 : List (Ref sig .tc) := [main_v76, main_c_13, main_v77, main_v78, main_c_14, main_v79, main_v80, main_v81, main_v82, main_v83, main_v84, main_v85, main_cst_15, main_v86, main_v87, main_v88, main_v89]
theorem written7_sub : (hostOps7 : List (HloOp τ sig (Elt F))).Forall fun op => op.writes ⊆ (written7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of stretch 9 write: one result each. -/
abbrev written9 : List (Ref sig .tc) := [main_v92, main_c_16, main_v93, main_v94, main_c_17, main_v95, main_v96, main_v97, main_v98, main_v99, main_v100, main_cst_18, main_v101, main_v102, main_v103, main_v104]
theorem written9_sub : (hostOps9 : List (HloOp τ sig (Elt F))).Forall fun op => op.writes ⊆ (written9.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffers still needed at each boundary, and each step leaving them alone -/

/-- Needed when the first region is entered: every argument but the edge list (which only the first stretch reads). -/
abbrev live1 : List (Ref sig .tc) := [main_arg0, main_arg5, main_arg6, main_arg2, main_arg7, main_arg8, main_arg3, main_arg9, main_arg10, main_arg4, main_arg11, main_arg12, main_arg13, main_arg14]
/-- The first stretch writes none of them: they are as launched. -/
theorem at1 (b : Ref sig .tc) (hb : b ∈ live1) : W1 m ρ c (Proc.devRef .tc b) = m ((c : Thread nD τ).loc b) :=
  StableHlo.after_of_writes_sub hostOps0 _ written0_sub ((by decide : ∀ b ∈ live1, b ∉ written0) b hb)

abbrev live2 : List (Ref sig .tc) := [main_v3, main_v6, main_v26, main_arg6, main_arg2, main_arg7, main_arg8, main_arg3, main_arg9, main_arg10, main_arg4, main_arg11, main_arg12, main_arg13, main_arg14]
/-- Region 0 has none of them among its arrays. -/
theorem keep2 (b : Ref sig .tc) (hb : b ∈ live2) : W2 m ρ c (Proc.devRef .tc b) = W1 m ρ c (Proc.devRef .tc b) :=
  W2_of_ne m ρ c b fun w => (by decide : ∀ b ∈ live2, ∀ w, Pipeline.arrRef spec0 w ≠ b) b hb w
/-- At this boundary each still holds what it held when the first region was entered. -/
theorem at2 (b : Ref sig .tc) (hb : b ∈ live2) : W2 m ρ c (Proc.devRef .tc b) = W1 m ρ c (Proc.devRef .tc b) := keep2 m ρ c b hb

abbrev live3 : List (Ref sig .tc) := [main_v3, main_v6, main_v26, main_arg2, main_arg7, main_arg8, main_arg3, main_arg9, main_arg10, main_arg4, main_arg11, main_arg12, main_arg13, main_arg14]
/-- Stretch 1 writes none of them. -/
theorem keep3 (b : Ref sig .tc) (hb : b ∈ live3) : W3 m ρ c (Proc.devRef .tc b) = W2 m ρ c (Proc.devRef .tc b) :=
  StableHlo.after_of_writes_sub hostOps1 _ written1_sub ((by decide : ∀ b ∈ live3, b ∉ written1) b hb)
theorem at3 (b : Ref sig .tc) (hb : b ∈ live3) : W3 m ρ c (Proc.devRef .tc b) = W1 m ρ c (Proc.devRef .tc b) :=
  (keep3 m ρ c b hb).trans (at2 m ρ c b ((by decide : ∀ b ∈ live3, b ∈ live2) b hb))

abbrev live4 : List (Ref sig .tc) := [main_v3, main_v6, main_v26, main_arg7, main_arg8, main_arg3, main_arg9, main_arg10, main_arg4, main_arg11, main_arg12, main_arg13, main_arg14]
/-- Region 1 has none of them among its arrays. -/
theorem keep4 (b : Ref sig .tc) (hb : b ∈ live4) : W4 m ρ c (Proc.devRef .tc b) = W3 m ρ c (Proc.devRef .tc b) :=
  W4_of_ne m ρ c b fun w => (by decide : ∀ b ∈ live4, ∀ w, Pipeline.arrRef spec1 w ≠ b) b hb w
theorem at4 (b : Ref sig .tc) (hb : b ∈ live4) : W4 m ρ c (Proc.devRef .tc b) = W1 m ρ c (Proc.devRef .tc b) :=
  (keep4 m ρ c b hb).trans (at3 m ρ c b ((by decide : ∀ b ∈ live4, b ∈ live3) b hb))

abbrev live5 : List (Ref sig .tc) := [main_v3, main_v6, main_v26, main_arg8, main_arg3, main_arg9, main_arg10, main_arg4, main_arg11, main_arg12, main_arg13, main_arg14]
/-- Region 2 has none of them among its arrays. -/
theorem keep5 (b : Ref sig .tc) (hb : b ∈ live5) : W5 m ρ c (Proc.devRef .tc b) = W4 m ρ c (Proc.devRef .tc b) :=
  W5_of_ne m ρ c b fun w => (by decide : ∀ b ∈ live5, ∀ w, Pipeline.arrRef spec2 w ≠ b) b hb w
theorem at5 (b : Ref sig .tc) (hb : b ∈ live5) : W5 m ρ c (Proc.devRef .tc b) = W1 m ρ c (Proc.devRef .tc b) :=
  (keep5 m ρ c b hb).trans (at4 m ρ c b ((by decide : ∀ b ∈ live5, b ∈ live4) b hb))

abbrev live6 : List (Ref sig .tc) := [main_v3, main_v6, main_v26, main_arg3, main_arg9, main_arg10, main_arg4, main_arg11, main_arg12, main_arg13, main_arg14]
/-- Stretch 3 writes none of them. -/
theorem keep6 (b : Ref sig .tc) (hb : b ∈ live6) : W6 m ρ c (Proc.devRef .tc b) = W5 m ρ c (Proc.devRef .tc b) :=
  StableHlo.after_of_writes_sub hostOps3 _ written3_sub ((by decide : ∀ b ∈ live6, b ∉ written3) b hb)
theorem at6 (b : Ref sig .tc) (hb : b ∈ live6) : W6 m ρ c (Proc.devRef .tc b) = W1 m ρ c (Proc.devRef .tc b) :=
  (keep6 m ρ c b hb).trans (at5 m ρ c b ((by decide : ∀ b ∈ live6, b ∈ live5) b hb))

abbrev live7 : List (Ref sig .tc) := [main_v3, main_v6, main_v26, main_arg9, main_arg10, main_arg4, main_arg11, main_arg12, main_arg13, main_arg14]
/-- Region 3 has none of them among its arrays. -/
theorem keep7 (b : Ref sig .tc) (hb : b ∈ live7) : W7 m ρ c (Proc.devRef .tc b) = W6 m ρ c (Proc.devRef .tc b) :=
  W7_of_ne m ρ c b fun w => (by decide : ∀ b ∈ live7, ∀ w, Pipeline.arrRef spec3 w ≠ b) b hb w
theorem at7 (b : Ref sig .tc) (hb : b ∈ live7) : W7 m ρ c (Proc.devRef .tc b) = W1 m ρ c (Proc.devRef .tc b) :=
  (keep7 m ρ c b hb).trans (at6 m ρ c b ((by decide : ∀ b ∈ live7, b ∈ live6) b hb))

abbrev live8 : List (Ref sig .tc) := [main_v3, main_v6, main_v26, main_arg10, main_arg4, main_arg11, main_arg12, main_arg13, main_arg14]
/-- Region 4 has none of them among its arrays. -/
theorem keep8 (b : Ref sig .tc) (hb : b ∈ live8) : W8 m ρ c (Proc.devRef .tc b) = W7 m ρ c (Proc.devRef .tc b) :=
  W8_of_ne m ρ c b fun w => (by decide : ∀ b ∈ live8, ∀ w, Pipeline.arrRef spec4 w ≠ b) b hb w
theorem at8 (b : Ref sig .tc) (hb : b ∈ live8) : W8 m ρ c (Proc.devRef .tc b) = W1 m ρ c (Proc.devRef .tc b) :=
  (keep8 m ρ c b hb).trans (at7 m ρ c b ((by decide : ∀ b ∈ live8, b ∈ live7) b hb))

abbrev live9 : List (Ref sig .tc) := [main_v3, main_v6, main_v26, main_arg4, main_arg11, main_arg12, main_arg13, main_arg14]
/-- Stretch 5 writes none of them. -/
theorem keep9 (b : Ref sig .tc) (hb : b ∈ live9) : W9 m ρ c (Proc.devRef .tc b) = W8 m ρ c (Proc.devRef .tc b) :=
  StableHlo.after_of_writes_sub hostOps5 _ written5_sub ((by decide : ∀ b ∈ live9, b ∉ written5) b hb)
theorem at9 (b : Ref sig .tc) (hb : b ∈ live9) : W9 m ρ c (Proc.devRef .tc b) = W1 m ρ c (Proc.devRef .tc b) :=
  (keep9 m ρ c b hb).trans (at8 m ρ c b ((by decide : ∀ b ∈ live9, b ∈ live8) b hb))

abbrev live10 : List (Ref sig .tc) := [main_v3, main_v6, main_v26, main_arg11, main_arg12, main_arg13, main_arg14]
/-- Region 5 has none of them among its arrays. -/
theorem keep10 (b : Ref sig .tc) (hb : b ∈ live10) : W10 m ρ c (Proc.devRef .tc b) = W9 m ρ c (Proc.devRef .tc b) :=
  W10_of_ne m ρ c b fun w => (by decide : ∀ b ∈ live10, ∀ w, Pipeline.arrRef spec5 w ≠ b) b hb w
theorem at10 (b : Ref sig .tc) (hb : b ∈ live10) : W10 m ρ c (Proc.devRef .tc b) = W1 m ρ c (Proc.devRef .tc b) :=
  (keep10 m ρ c b hb).trans (at9 m ρ c b ((by decide : ∀ b ∈ live10, b ∈ live9) b hb))

abbrev live11 : List (Ref sig .tc) := [main_v3, main_v6, main_v26, main_arg12, main_arg13, main_arg14]
/-- Region 6 has none of them among its arrays. -/
theorem keep11 (b : Ref sig .tc) (hb : b ∈ live11) : W11 m ρ c (Proc.devRef .tc b) = W10 m ρ c (Proc.devRef .tc b) :=
  W11_of_ne m ρ c b fun w => (by decide : ∀ b ∈ live11, ∀ w, Pipeline.arrRef spec6 w ≠ b) b hb w
theorem at11 (b : Ref sig .tc) (hb : b ∈ live11) : W11 m ρ c (Proc.devRef .tc b) = W1 m ρ c (Proc.devRef .tc b) :=
  (keep11 m ρ c b hb).trans (at10 m ρ c b ((by decide : ∀ b ∈ live11, b ∈ live10) b hb))

abbrev live12 : List (Ref sig .tc) := [main_v3, main_v6, main_v26, main_arg13, main_arg14]
/-- Stretch 7 writes none of them. -/
theorem keep12 (b : Ref sig .tc) (hb : b ∈ live12) : W12 m ρ c (Proc.devRef .tc b) = W11 m ρ c (Proc.devRef .tc b) :=
  StableHlo.after_of_writes_sub hostOps7 _ written7_sub ((by decide : ∀ b ∈ live12, b ∉ written7) b hb)
theorem at12 (b : Ref sig .tc) (hb : b ∈ live12) : W12 m ρ c (Proc.devRef .tc b) = W1 m ρ c (Proc.devRef .tc b) :=
  (keep12 m ρ c b hb).trans (at11 m ρ c b ((by decide : ∀ b ∈ live12, b ∈ live11) b hb))

abbrev live13 : List (Ref sig .tc) := [main_v3, main_v6, main_v26, main_arg13, main_arg14]
/-- Region 7 has none of them among its arrays. -/
theorem keep13 (b : Ref sig .tc) (hb : b ∈ live13) : W13 m ρ c (Proc.devRef .tc b) = W12 m ρ c (Proc.devRef .tc b) :=
  W13_of_ne m ρ c b fun w => (by decide : ∀ b ∈ live13, ∀ w, Pipeline.arrRef spec7 w ≠ b) b hb w
theorem at13 (b : Ref sig .tc) (hb : b ∈ live13) : W13 m ρ c (Proc.devRef .tc b) = W1 m ρ c (Proc.devRef .tc b) :=
  (keep13 m ρ c b hb).trans (at12 m ρ c b ((by decide : ∀ b ∈ live13, b ∈ live12) b hb))

abbrev live14 : List (Ref sig .tc) := [main_v3, main_v6, main_v26, main_arg14]
/-- Region 8 has none of them among its arrays. -/
theorem keep14 (b : Ref sig .tc) (hb : b ∈ live14) : W14 m ρ c (Proc.devRef .tc b) = W13 m ρ c (Proc.devRef .tc b) :=
  W14_of_ne m ρ c b fun w => (by decide : ∀ b ∈ live14, ∀ w, Pipeline.arrRef spec8 w ≠ b) b hb w
theorem at14 (b : Ref sig .tc) (hb : b ∈ live14) : W14 m ρ c (Proc.devRef .tc b) = W1 m ρ c (Proc.devRef .tc b) :=
  (keep14 m ρ c b hb).trans (at13 m ρ c b ((by decide : ∀ b ∈ live14, b ∈ live13) b hb))

end Cert.KernelIdeal.Carry

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«151999_j8959301779746_1_alg».proof.Proof.LibPlainContract
import proofs.«151999_j8959301779746_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.LibDropout.lean ====
/-
  Inverted dropout with keep probability one half, read at one entry at exact (extended real) values.

  A uniform draw u keeps its entry when u > 1/2. The keep factor is 1 for a kept entry and 0 otherwise, and the kept
  entries are doubled: entry i of the result is a(i) · keep(u(i)) · 2. A tiled body obtains the factor by widening the
  one-bit comparison to 32 bits without sign and converting it as a signed integer; a host program converts the one-bit
  comparison as an unsigned integer. A one-bit value widened without sign is 0 or 1 either way, so the two factors are
  the same number.
-/
import Idealize.ShloMosaic.PureOps.Ideal.Laws
import Idealize.ShloMosaic.Lib.ValueIdx

noncomputable section

namespace Cert.LibDropout

open Idealize.ShloMosaic Idealize.ShloMosaic.ValueIdx

/-- The keep factor of one draw: 1 where the draw exceeds one half (as its single-precision pattern), else 0. -/
def keep (u : EReal) : EReal :=
  Scalar.uitofp (F := Ideal) .f32 (FloatOps.cmpf (F := Ideal) (φ := .f32) .ogt u (Ideal.ofBits .f32 0x3F000000#32))

/-- A one-bit value widened to 32 bits without sign has the same signed and unsigned reading. -/
theorem widen_bit : ∀ b : BitVec 1, (b.setWidth 32).toInt = (b.toNat : Int) := by decide

/-- Doubling the kept entries of a by the draws u. -/
def drop {s : Shape} (a u : s.Idx → EReal) : s.Idx → EReal :=
  fun i => a i * keep (u i) * Ideal.ofBits .f32 0x40000000#32

theorem drop_apply {s : Shape} (a u : s.Idx → EReal) (i : s.Idx) :
    drop a u i = a i * keep (u i) * Ideal.ofBits .f32 0x40000000#32 := rfl

/-- The tiled body's factor at one entry: compare with a splat one half, widen without sign, convert as signed. -/
theorem tileKeep_apply {s : Shape} (u : FVec Ideal s .f32) (h : 1 < 32) (i : s.Idx) :
    sitofp (F := Ideal) .f32 (extui 32 (cmpf .ogt u (broadcast s (Scalar.ofBits (F := Ideal) .f32 0x3F000000#32))) h) i = keep (u i) := by
  show (((FloatOps.cmpf (F := Ideal) (φ := .f32) .ogt (u i) (Ideal.ofBits .f32 0x3F000000#32)).setWidth 32).toInt : ℝ)
      = (((FloatOps.cmpf (F := Ideal) (φ := .f32) .ogt (u i) (Ideal.ofBits .f32 0x3F000000#32)).toNat : ℝ) : EReal)
  rw [widen_bit]; simp

/-- The host program's factor at one entry: compare with a rank-0 one half broadcast, convert as unsigned. -/
theorem hostKeep_apply {s : Shape} (hb : (⟨0, ![]⟩ : Shape).BroadcastsInDim s ![]) (u : FVec Ideal s .f32) (i : s.Idx) :
    uitofp (F := Ideal) .f32 (cmpf .ogt u (broadcastInDim s ![] hb (constant (F := Ideal) ⟨0, ![]⟩ .f32 0x3F000000#32))) i
      = keep (u i) := rfl

/-- The tiled body's dropout of a value a by draws u, at one entry. -/
theorem tileDrop_apply {s : Shape} (a u : FVec Ideal s .f32) (h : 1 < 32) (i : s.Idx) :
    mulf (mulf a (sitofp (F := Ideal) .f32 (extui 32 (cmpf .ogt u (broadcast s (Scalar.ofBits (F := Ideal) .f32 0x3F000000#32))) h)))
        (broadcast s (Scalar.ofBits (F := Ideal) .f32 0x40000000#32)) i
      = drop a u i := by
  show a i * sitofp (F := Ideal) .f32 (extui 32 (cmpf .ogt u (broadcast s (Scalar.ofBits (F := Ideal) .f32 0x3F000000#32))) h) i
      * Ideal.ofBits .f32 0x40000000#32 = _
  rw [tileKeep_apply]; rfl

/-- The host program's dropout of a value a by draws u, at one entry. -/
theorem hostDrop_apply {s : Shape} (hb : (⟨0, ![]⟩ : Shape).BroadcastsInDim s ![]) (a u : FVec Ideal s .f32) (i : s.Idx) :
    mulf (mulf a (uitofp (F := Ideal) .f32 (cmpf .ogt u (broadcastInDim s ![] hb (constant (F := Ideal) ⟨0, ![]⟩ .f32 0x3F000000#32)))))
        (broadcastInDim s ![] hb (constant (F := Ideal) ⟨0, ![]⟩ .f32 0x40000000#32)) i
      = drop a u i := rfl

end Cert.LibDropout

end
-- ==== Proof.LibDenseWhole.lean ====
/-
  Dense stages of a graph network as whole arrays, at exact (extended real) values.

  A host program's matrix product of an [M, K] array by a [K, C] array is, entry by entry, the plain sum over the
  contracted index (the product mm). Its bias stage — a bias vector laid along every row, the rectifier against zero, and
  (in the hidden layers) inverted dropout with keep probability one half — is, entry by entry,
  max(a + b, 0) · keep(u) · 2. A tiled body computes the same entries from a block of rows and a one-row bias.
-/
import Idealize.ShloMosaic.PureOps.Ideal.Laws
import Idealize.ShloMosaic.Lib.ValueIdx
import proofs.«151999_j8959301779746_1_alg».proof.Proof.LibDenseRows
import proofs.«151999_j8959301779746_1_alg».proof.Proof.LibDropout

noncomputable section

namespace Cert.DenseWhole

open Idealize.ShloMosaic Idealize.ShloMosaic.ValueIdx Cert.Dense Cert.LibDropout

/-- The host's dot product of two matrices is the matrix product. -/
theorem hostProduct_eq (M K C : Nat) (prec : Option ContractPrecision)
    (x : FVec Ideal ⟨2, ![M, K]⟩ .f32) (w : FVec Ideal ⟨2, ![K, C]⟩ .f32) :
    Host.dotGeneral (DotDims.plain M K C) prec x w = mm x w := by
  funext i
  obtain ⟨p, q, rfl⟩ : ∃ (p : Fin M) (q : Fin C), i = ix2 p q := ⟨i 0, i 1, eq_ix2 i⟩
  exact hostProduct_apply M K C prec x w p q

/-- The host's bias along every row, then the rectifier, is act. -/
theorem hostAct_eq (M K : Nat) (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) :
    maximumf (addf a (broadcastInDim ⟨2, ![M, K]⟩ ![0, 1] h2 (broadcastInDim ⟨2, ![1, K]⟩ ![1] h1 b)))
        (broadcastInDim ⟨2, ![M, K]⟩ ![] h0 (constant (F := Ideal) ⟨0, ![]⟩ .f32 0x00000000#32))
      = act a b := by
  funext i
  obtain ⟨p, q, rfl⟩ : ∃ (p : Fin M) (q : Fin K), i = ix2 p q := ⟨i 0, i 1, eq_ix2 i⟩
  rw [hostRelu_apply, hostAddRow_apply, act_apply]

/-- The host's bias, rectifier and dropout is the dropout of act. -/
theorem hostActDrop_eq (M K : Nat) (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) (u : FVec Ideal ⟨2, ![M, K]⟩ .f32) :
    mulf (mulf (maximumf (addf a (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32)))
        (uitofp (F := Ideal) .f32 (cmpf .ogt u (broadcastInDim ⟨2, ![M, K]⟩ ![] h0 (constant (F := Ideal) ⟨0, ![]⟩ .f32 0x3F000000#32)))))
      (broadcastInDim ⟨2, ![M, K]⟩ ![] h0 (constant (F := Ideal) ⟨0, ![]⟩ .f32 0x40000000#32))
      = drop (act a b) u := by
  funext i
  rw [hostDrop_apply, hostAct_eq]

/-- The tiled body's bias, rectifier and dropout of a block of rows, at one entry. -/
theorem tileActDrop_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩) (h32 : 1 < 32)
    (x : FVec Ideal ⟨2, ![M, K]⟩ .f32) (b : FVec Ideal ⟨2, ![1, K]⟩ .f32) (u : FVec Ideal ⟨2, ![M, K]⟩ .f32)
    (p : Fin M) (q : Fin K) :
    mulf (mulf (maximumf (addf (shapeCast ⟨2, ![M, K]⟩ x hs0) (broadcastTo ⟨2, ![M, K]⟩ (shapeCast ⟨2, ![1, K]⟩ b hs1) hb))
          (broadcast ⟨2, ![M, K]⟩ (Scalar.ofBits (F := Ideal) .f32 0x00000000#32)))
        (sitofp (F := Ideal) .f32 (extui 32 (cmpf .ogt u (broadcast ⟨2, ![M, K]⟩ (Scalar.ofBits (F := Ideal) .f32 0x3F000000#32))) h32)))
      (broadcast ⟨2, ![M, K]⟩ (Scalar.ofBits (F := Ideal) .f32 0x40000000#32)) (ix2 p q)
      = max (x (ix2 p q) + b (ix2 (0 : Fin 1) q)) 0 * keep (u (ix2 p q)) * Ideal.ofBits .f32 0x40000000#32 := by
  rw [tileDrop_apply, drop_apply, tileAct_apply]

/-- The matrix product at any index: the sum along the index's row and column. -/
theorem mm_at {M K C : Nat} (x : Mat M K) (w : Mat K C) (i : (⟨2, ![M, C]⟩ : Shape).Idx) :
    mm x w i = ∑ k : Fin K, x (ix2 (rowOf i) k) * w (ix2 k (colOf i)) := rfl

/-- A one-row bias along every row, then the rectifier, at any index. -/
theorem actRow_at {M K : Nat} (a : Mat M K) (b : Mat 1 K) (i : (⟨2, ![M, K]⟩ : Shape).Idx) :
    actRow a b i = max (a i + b (ix2 (0 : Fin 1) (colOf i))) 0 := rfl

/-- The dropout of a one-row-bias act, at any index. -/
theorem drop_actRow_at {M K : Nat} (a : Mat M K) (b : Mat 1 K) (u : Mat M K) (i : (⟨2, ![M, K]⟩ : Shape).Idx) :
    drop (actRow a b) u i
      = max (a i + b (ix2 (0 : Fin 1) (colOf i))) 0 * keep (u i) * Ideal.ofBits .f32 0x40000000#32 := rfl

end Cert.DenseWhole

end
-- ==== Proof.RefSide.lean ====
/-
  The reference program's dense stages, read as whole arrays at exact (extended real) values.

  The reference is five graph-convolution layers. In each, a host matrix product of the layer's input by its weight
  matrix is aggregated over the edges, and then a bias is laid along every row and the rectifier applied; the first three
  layers end with inverted dropout. Here each product is shown to be the matrix product mm of its two operands, and each
  bias stage the function act (then drop) of the aggregate, the bias and the draws. The aggregation between them is left
  as the reference states it.
-/
import proofs.«151999_j8959301779746_1_alg».proof.Defs
import proofs.«151999_j8959301779746_1_alg».proof.Proof.Gen.ReferenceIdeal.Read
import proofs.«151999_j8959301779746_1_alg».proof.Proof.LibDenseWhole

noncomputable section

namespace Cert.RefSide

open Cert.ReferenceIdeal Cert.ReferenceIdeal.Read
open Idealize.ShloMosaic Idealize.ShloMosaic.ValueIdx Cert.Dense Cert.LibDropout

variable (x0 : (⟨S50000x256, .f32⟩ : BufTy).Contents (Elt Ideal)) (x1 : (⟨S2x800000, .i32⟩ : BufTy).Contents (Elt Ideal))
  (x2 : (⟨S50000x128, .f32⟩ : BufTy).Contents (Elt Ideal)) (x3 : (⟨S50000x256, .f32⟩ : BufTy).Contents (Elt Ideal))
  (x4 : (⟨S50000x128, .f32⟩ : BufTy).Contents (Elt Ideal)) (x5 : (⟨S256x128, .f32⟩ : BufTy).Contents (Elt Ideal))
  (x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal)) (x11 : (⟨S128x2, .f32⟩ : BufTy).Contents (Elt Ideal))
  (x12 : (⟨S2, .f32⟩ : BufTy).Contents (Elt Ideal)) (x13 : (⟨S2x1, .f32⟩ : BufTy).Contents (Elt Ideal))
  (x14 : (⟨S1, .f32⟩ : BufTy).Contents (Elt Ideal))

/-! ## The five products -/

/-- Layer 1: the features by the first weight matrix. -/
theorem product1 : val_main_v27 (F := Ideal) x0 x5 = mm (N := 50000) (K := 256) (C := 128) x0 x5 := by
  unfold val_main_v27
  exact Cert.DenseWhole.hostProduct_eq 50000 256 128 none x0 x5

/-- Layer 2: the first layer's output by the second weight matrix. -/
theorem product2 : val_main_v51 (F := Ideal) x0 x1 x2 x5 x6 x7
    = mm (N := 50000) (K := 128) (C := 256) (val_main_v50 (F := Ideal) x0 x1 x2 x5 x6) x7 := by
  unfold val_main_v51
  exact Cert.DenseWhole.hostProduct_eq 50000 128 256 none _ x7

/-- Layer 3. -/
theorem product3 : val_main_v75 (F := Ideal) x0 x1 x2 x3 x5 x6 x7 x8 x9
    = mm (N := 50000) (K := 256) (C := 128) (val_main_v74 (F := Ideal) x0 x1 x2 x3 x5 x6 x7 x8) x9 := by
  unfold val_main_v75
  exact Cert.DenseWhole.hostProduct_eq 50000 256 128 none _ x9

/-- Layer 4. -/
theorem product4 : val_main_v99 (F := Ideal) x0 x1 x2 x3 x4 x5 x6 x7 x8 x9 x10 x11
    = mm (N := 50000) (K := 128) (C := 2) (val_main_v98 (F := Ideal) x0 x1 x2 x3 x4 x5 x6 x7 x8 x9 x10) x11 := by
  unfold val_main_v99
  exact Cert.DenseWhole.hostProduct_eq 50000 128 2 none _ x11

/-- Layer 5. -/
theorem product5 : val_main_v117 (F := Ideal) x0 x1 x2 x3 x4 x5 x6 x7 x8 x9 x10 x11 x12 x13
    = mm (N := 50000) (K := 2) (C := 1) (val_main_v116 (F := Ideal) x0 x1 x2 x3 x4 x5 x6 x7 x8 x9 x10 x11 x12) x13 := by
  unfold val_main_v117
  exact Cert.DenseWhole.hostProduct_eq 50000 2 1 none _ x13

/-! ## The five bias stages -/

/-- Layer 1: bias, rectifier and dropout of the first aggregate. -/
theorem bias1 : val_main_v50 (F := Ideal) x0 x1 x2 x5 x6
    = drop (act (N := 50000) (K := 128) (val_main_v40 (F := Ideal) x0 x1 x5) x6) x2 := by
  unfold val_main_v50 val_main_v48 val_main_v49 val_main_cst_8 val_main_v47 val_main_v46 val_main_v45 val_main_cst_7
    val_main_v44 val_main_call0_v0 val_main_call0_cst val_main_v43 val_main_v42 val_main_v41
  exact Cert.DenseWhole.hostActDrop_eq 50000 128 _ _ _ (val_main_v40 (F := Ideal) x0 x1 x5) x6 x2

/-- Layer 2. -/
theorem bias2 : val_main_v74 (F := Ideal) x0 x1 x2 x3 x5 x6 x7 x8
    = drop (act (N := 50000) (K := 256) (val_main_v64 (F := Ideal) x0 x1 x2 x5 x6 x7) x8) x3 := by
  unfold val_main_v74 val_main_v72 val_main_v73 val_main_cst_13 val_main_v71 val_main_v70 val_main_v69 val_main_cst_12
    val_main_v68 val_main_call1_v0 val_main_call1_cst val_main_v67 val_main_v66 val_main_v65
  exact Cert.DenseWhole.hostActDrop_eq 50000 256 _ _ _ (val_main_v64 (F := Ideal) x0 x1 x2 x5 x6 x7) x8 x3

/-- Layer 3. -/
theorem bias3 : val_main_v98 (F := Ideal) x0 x1 x2 x3 x4 x5 x6 x7 x8 x9 x10
    = drop (act (N := 50000) (K := 128) (val_main_v88 (F := Ideal) x0 x1 x2 x3 x5 x6 x7 x8 x9) x10) x4 := by
  unfold val_main_v98 val_main_v96 val_main_v97 val_main_cst_18 val_main_v95 val_main_v94 val_main_v93 val_main_cst_17
    val_main_v92 val_main_call2_v0 val_main_call2_cst val_main_v91 val_main_v90 val_main_v89
  exact Cert.DenseWhole.hostActDrop_eq 50000 128 _ _ _ (val_main_v88 (F := Ideal) x0 x1 x2 x3 x5 x6 x7 x8 x9) x10 x4

/-- Layer 4: bias and rectifier, no dropout. -/
theorem bias4 : val_main_v116 (F := Ideal) x0 x1 x2 x3 x4 x5 x6 x7 x8 x9 x10 x11 x12
    = act (N := 50000) (K := 2) (val_main_v112 (F := Ideal) x0 x1 x2 x3 x4 x5 x6 x7 x8 x9 x10 x11) x12 := by
  unfold val_main_v116 val_main_call3_v0 val_main_call3_cst val_main_v115 val_main_v114 val_main_v113
  exact Cert.DenseWhole.hostAct_eq 50000 2 _ _ _ (val_main_v112 (F := Ideal) x0 x1 x2 x3 x4 x5 x6 x7 x8 x9 x10 x11) x12

/-- Layer 5: bias and rectifier, no dropout. -/
theorem bias5 : val_main_v133 (F := Ideal) x0 x1 x2 x3 x4 x5 x6 x7 x8 x9 x10 x11 x12 x13 x14
    = act (N := 50000) (K := 1) (val_main_v129 (F := Ideal) x0 x1 x2 x3 x4 x5 x6 x7 x8 x9 x10 x11 x12 x13) x14 := by
  unfold val_main_v133 val_main_call4_v0 val_main_call4_cst val_main_v132 val_main_v131 val_main_v130
  exact Cert.DenseWhole.hostAct_eq 50000 1 _ _ _ (val_main_v129 (F := Ideal) x0 x1 x2 x3 x4 x5 x6 x7 x8 x9 x10 x11 x12 x13) x14

end Cert.RefSide

end
-- ==== Proof.Stage0.lean ====
/-
  The first dense stage. The region multiplies the node features, 2000 rows at a time, by the whole first weight matrix:
  grid point t reads rows 2000·t … 2000·t + 1999 of the features and all of the weights, and writes the same rows of the
  product. A row of a matrix product depends on that row of the left factor only, and the 25 blocks tile the 50000 rows,
  so after the region the output array is the whole product of the two arrays as the region found them.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the sum over the contracted axis. -/
theorem pay_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  exact Cert.Dense.tileProduct_apply 2000 256 128 none _ _ x0 x1 p q

/-- The printed index maps over the grid: the feature block and the product block are block t of their arrays, the
    weights' block is the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two arrays. -/
theorem flushed_eq (c : Dev nD) (t : Fin cfg0.N) :
    (dat0 V c).flushed 2 t = ((cfg0.win 2).blk t).view.read (Elt Ideal)
      (Cert.Dense.mm (N := 50000) (K := 256) (C := 128) (V c main_arg0) (V c main_arg5)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x128) origin]
  obtain ⟨e0, e1, e2, e3, e4, e5⟩ := index_facts t
  funext j
  show k0_pay1 (iblk0 V c 0 t) (iblk0 V c 1 t) j
      = Cert.Dense.mm (N := 50000) (K := 256) (C := 128) (V c main_arg0) (V c main_arg5) (((cfg0.win 2).blk t).view.emb j)
  obtain ⟨p, q, rfl⟩ : ∃ (p : Fin 2000) (q : Fin 128), j = ix2 p q := ⟨j 0, j 1, eq_ix2 j⟩
  refine (pay_apply (iblk0 V c 0 t) (iblk0 V c 1 t) p q).trans ?_
  rw [Cert.DenseWhole.mm_at]
  refine Finset.sum_congr rfl fun k _ => ?_
  -- the feature block's row p is row 2000·t + p of the array, as the product block's is
  have hx : iblk0 V c 0 t (ix2 p k)
      = V c main_arg0 (ix2 (Cert.Dense.rowOf (N := 50000) (K := 128) (((cfg0.win 2).blk t).view.emb (ix2 p q))) k) := by
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  -- the weights' block is the whole matrix
  have hw : iblk0 V c 1 t (ix2 k q)
      = V c main_arg5 (ix2 k (Cert.Dense.colOf (N := 50000) (K := 128) (((cfg0.win 2).blk t).view.emb (ix2 p q)))) := by
    show V c main_arg5 (((cfg0.win 1).blk t).view.emb (ix2 k q)) = _
    refine congrArg (V c main_arg5) ?_
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hx, hw]

/-- An index of the product array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- The 25 blocks of 2000 rows tile the 50000 rows: row r is in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by show (i 0).val / 2000 < grid0.N; rw [N_0]; omega
  obtain ⟨-, -, -, -, e4, e5⟩ := index_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4']; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- After the region its output array is the product of its two input arrays as the region found them. -/
theorem value (c : Dev nD) :
    (dat0 V c).arrAt 2 cfg0.N = Cert.Dense.mm (N := 50000) (K := 256) (C := 128) (V c main_arg0) (V c main_arg5) :=
  (dat0 V c).arrAt_eq_of_cover 2 _ (fun t _ => flushed_eq V c t) cover

end Cert.KernelIdeal.Stage0

end
-- ==== Proof.Stage1.lean ====
/-
  The first bias stage. The region adds the bias to the aggregated features, applies the rectifier and inverted dropout,
  2000 rows at a time: grid point t reads rows 2000·t … 2000·t + 1999 of the aggregate and of the uniform draws and the
  whole one-row bias, and writes the same rows of the result. Every entry depends on the same entry of the aggregate and
  of the draws and on the bias entry of its column, and the 25 blocks tile the 50000 rows, so after the region the output
  array is max(a + b, 0) · keep(u) · 2 of the three arrays as the region found them, entry by entry.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.LibDropout

variable (V : (c : Dev nD) → (b : Ref sig .tc) → Buf (Elt Ideal) ((c : Thread nD τ).loc b))

theorem origin : (![0, 0] : Fin 2 → Nat) = fun _ => 0 := funext fun a => by fin_cases a <;> rfl

/-- One entry of a block's result. -/
theorem pay_apply (x0 : Vec Ideal S2000x128 .f32) (x1 : Vec Ideal S1x128 .f32) (x2 : Vec Ideal S2000x128 .f32)
    (p : Fin 2000) (q : Fin 128) :
    k1_pay1 x0 x1 x2 (ix2 p q)
      = max (x0 (ix2 p q) + x1 (ix2 (0 : Fin 1) q)) 0 * keep (x2 (ix2 p q)) * Ideal.ofBits .f32 0x40000000#32 := by
  unfold k1_pay1
  exact Cert.DenseWhole.tileActDrop_apply 2000 128 _ _ _ _ x0 x1 x2 p q

/-- The printed index maps over the grid: the aggregate's, the draws' and the result's block are block t of their
    arrays, the bias' block is the whole row. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point t writes back is block t of the stage applied to the three arrays. -/
theorem flushed_eq (c : Dev nD) (t : Fin cfg1.N) :
    (dat1 V c).flushed 3 t = ((cfg1.win 3).blk t).view.read (Elt Ideal)
      (drop (actRow (N := 50000) (K := 128) (V c main_v40) (V c main_v41)) (V c main_arg2)) := by
  show (cfg1.win 3).cut (grid1.coords t) ((dat1 V c).after 3 t) = _
  rw [after1_3]
  unfold out1_3
  rw [View.canon_unit_zero origin]
  simp only [View.ld_unit_zero (S := S2000x128) origin, View.ld_unit_zero (S := S1x128) origin]
  obtain ⟨e0, e1, e2, e3, e4, e5, e6, e7⟩ := index_facts t
  funext j
  show k1_pay1 (iblk1 V c 0 t) (iblk1 V c 1 t) (iblk1 V c 2 t) j
      = drop (actRow (N := 50000) (K := 128) (V c main_v40) (V c main_v41)) (V c main_arg2) (((cfg1.win 3).blk t).view.emb j)
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) p q).trans ?_
  rw [Cert.DenseWhole.drop_actRow_at]
  -- the aggregate's and the draws' blocks move with the result's block
  have ha : iblk1 V c 0 t (ix2 p q) = V c main_v40 (((cfg1.win 3).blk t).view.emb (ix2 p q)) := by
    show V c main_v40 (((cfg1.win 0).blk t).view.emb (ix2 p q)) = _
    refine congrArg (V c main_v40) ?_
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have hu : iblk1 V c 2 t (ix2 p q) = V c main_arg2 (((cfg1.win 3).blk t).view.emb (ix2 p q)) := by
    show V c main_arg2 (((cfg1.win 2).blk t).view.emb (ix2 p q)) = _
    refine congrArg (V c main_arg2) ?_
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 128 + 1 * q.val = win1_3.index t (1 : Fin 2) * 128 + 1 * q.val; omega
  -- the bias' block is the whole row
  have hb : iblk1 V c 1 t (ix2 (0 : Fin 1) q)
      = V c main_v41 (ix2 (0 : Fin 1) (colOf (N := 50000) (K := 128) (((cfg1.win 3).blk t).view.emb (ix2 p q)))) := by
    show V c main_v41 (((cfg1.win 1).blk t).view.emb (ix2 (0 : Fin 1) q)) = _
    refine congrArg (V c main_v41) ?_
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  rw [ha, hu, hb]

/-- An index of the result array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v42).slice (win1_3.rect t)).set ↔ _
  rw [View.set_slice_whole, Rect.mem_set_unit]
  exact Iff.rfl

/-- The 25 blocks of 2000 rows tile the 50000 rows: row r is in the block of point r / 2000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < cfg1.N := by show (i 0).val / 2000 < grid1.N; rw [N_1]; omega
  obtain ⟨-, -, -, -, -, -, e6, e7⟩ := index_facts ⟨(i 0).val / 2000, ht⟩
  have e6' : win1_3.index ⟨(i 0).val / 2000, ht⟩ (0 : Fin 2) = (i 0).val / 2000 := e6
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6']; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e7]; omega

/-- After the region its output array is the stage applied to its three input arrays as the region found them. -/
theorem value (c : Dev nD) :
    (dat1 V c).arrAt 3 cfg1.N
      = drop (actRow (N := 50000) (K := 128) (V c main_v40) (V c main_v41)) (V c main_arg2) :=
  (dat1 V c).arrAt_eq_of_cover 3 _ (fun t _ => flushed_eq V c t) cover

end Cert.KernelIdeal.Stage1

end
-- ==== Proof.Stage2.lean ====
/-
  The second dense stage. The region multiplies the previous layer's output, 2000 rows at a time, by the whole second weight matrix:
  grid point t reads rows 2000·t … 2000·t + 1999 of that output and all of the weights, and writes the same rows of the
  product. A row of a matrix product depends on that row of the left factor only, and the 25 blocks tile the 50000 rows,
  so after the region the output array is the whole product of the two arrays as the region found them.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the sum over the contracted axis. -/
theorem pay_apply (x0 : Vec Ideal S2000x128 .f32) (x1 : Vec Ideal S128x256 .f32) (p : Fin 2000) (q : Fin 256) :
    k2_pay1 x0 x1 (ix2 p q) = ∑ k : Fin 128, x0 (ix2 p k) * x1 (ix2 k q) := by
  unfold k2_pay1
  -- the left block is first cast to its own shape, which changes nothing
  simp only [shapeCast_self]
  exact Cert.Dense.tileProduct_apply 2000 128 256 none _ _ x0 x1 p q

/-- The printed index maps over the grid: the feature block and the product block are block t of their arrays, the
    weights' block is the whole matrix. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the two arrays. -/
theorem flushed_eq (c : Dev nD) (t : Fin cfg2.N) :
    (dat2 V c).flushed 2 t = ((cfg2.win 2).blk t).view.read (Elt Ideal)
      (Cert.Dense.mm (N := 50000) (K := 128) (C := 256) (V c main_v42) (V c main_arg7)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x256) origin]
  obtain ⟨e0, e1, e2, e3, e4, e5⟩ := index_facts t
  funext j
  show k2_pay1 (iblk2 V c 0 t) (iblk2 V c 1 t) j
      = Cert.Dense.mm (N := 50000) (K := 128) (C := 256) (V c main_v42) (V c main_arg7) (((cfg2.win 2).blk t).view.emb j)
  obtain ⟨p, q, rfl⟩ : ∃ (p : Fin 2000) (q : Fin 256), j = ix2 p q := ⟨j 0, j 1, eq_ix2 j⟩
  refine (pay_apply (iblk2 V c 0 t) (iblk2 V c 1 t) p q).trans ?_
  rw [Cert.DenseWhole.mm_at]
  refine Finset.sum_congr rfl fun k _ => ?_
  -- the feature block's row p is row 2000·t + p of the array, as the product block's is
  have hx : iblk2 V c 0 t (ix2 p k)
      = V c main_v42 (ix2 (Cert.Dense.rowOf (N := 50000) (K := 256) (((cfg2.win 2).blk t).view.emb (ix2 p q))) k) := by
    show V c main_v42 (((cfg2.win 0).blk t).view.emb (ix2 p k)) = _
    refine congrArg (V c main_v42) ?_
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  -- the weights' block is the whole matrix
  have hw : iblk2 V c 1 t (ix2 k q)
      = V c main_arg7 (ix2 k (Cert.Dense.colOf (N := 50000) (K := 256) (((cfg2.win 2).blk t).view.emb (ix2 p q)))) := by
    show V c main_arg7 (((cfg2.win 1).blk t).view.emb (ix2 k q)) = _
    refine congrArg (V c main_arg7) ?_
    funext a; apply Fin.ext
    match a with
    | ⟨0, _⟩ => show win2_1.index t (0 : Fin 2) * 128 + 1 * k.val = k.val; omega
    | ⟨1, _⟩ => show win2_1.index t (1 : Fin 2) * 256 + 1 * q.val = win2_2.index t (1 : Fin 2) * 256 + 1 * q.val; omega
  rw [hx, hw]

/-- An index of the product array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v43).slice (win2_2.rect t)).set ↔ _
  rw [View.set_slice_whole, Rect.mem_set_unit]
  exact Iff.rfl

/-- The 25 blocks of 2000 rows tile the 50000 rows: row r is in the block of point r / 2000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 2000 < cfg2.N := by show (i 0).val / 2000 < grid2.N; rw [N_2]; omega
  obtain ⟨-, -, -, -, e4, e5⟩ := index_facts ⟨(i 0).val / 2000, ht⟩
  have e4' : win2_2.index ⟨(i 0).val / 2000, ht⟩ (0 : Fin 2) = (i 0).val / 2000 := e4
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4']; omega
  | ⟨1, _⟩ =>
    show win2_2.index ⟨(i 0).val / 2000, ht⟩ (1 : Fin 2) * 256 ≤ (i 1).val
      ∧ (i 1).val < win2_2.index ⟨(i 0).val / 2000, ht⟩ (1 : Fin 2) * 256 + 256
    rw [e5]; omega

/-- After the region its output array is the product of its two input arrays as the region found them. -/
theorem value (c : Dev nD) :
    (dat2 V c).arrAt 2 cfg2.N = Cert.Dense.mm (N := 50000) (K := 128) (C := 256) (V c main_v42) (V c main_arg7) :=
  (dat2 V c).arrAt_eq_of_cover 2 _ (fun t _ => flushed_eq V c t) cover

end Cert.KernelIdeal.Stage2

end
-- ==== Proof.Stage3.lean ====
/-
  The second bias stage. The region adds the bias to the aggregated features, applies the rectifier and inverted dropout,
  2000 rows at a time: grid point t reads rows 2000·t … 2000·t + 1999 of the aggregate and of the uniform draws and the
  whole one-row bias, and writes the same rows of the result. Every entry depends on the same entry of the aggregate and
  of the draws and on the bias entry of its column, and the 25 blocks tile the 50000 rows, so after the region the output
  array is max(a + b, 0) · keep(u) · 2 of the three arrays as the region found them, entry by entry.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage3

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.LibDropout

variable (V : (c : Dev nD) → (b : Ref sig .tc) → Buf (Elt Ideal) ((c : Thread nD τ).loc b))

theorem origin : (![0, 0] : Fin 2 → Nat) = fun _ => 0 := funext fun a => by fin_cases a <;> rfl

/-- One entry of a block's result. -/
theorem pay_apply (x0 : Vec Ideal S2000x256 .f32) (x1 : Vec Ideal S1x256 .f32) (x2 : Vec Ideal S2000x256 .f32)
    (p : Fin 2000) (q : Fin 256) :
    k3_pay1 x0 x1 x2 (ix2 p q)
      = max (x0 (ix2 p q) + x1 (ix2 (0 : Fin 1) q)) 0 * keep (x2 (ix2 p q)) * Ideal.ofBits .f32 0x40000000#32 := by
  unfold k3_pay1
  exact Cert.DenseWhole.tileActDrop_apply 2000 256 _ _ _ _ x0 x1 x2 p q

/-- The printed index maps over the grid: the aggregate's, the draws' and the result's block are block t of their
    arrays, the bias' block is the whole row. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What grid point t writes back is block t of the stage applied to the three arrays. -/
theorem flushed_eq (c : Dev nD) (t : Fin cfg3.N) :
    (dat3 V c).flushed 3 t = ((cfg3.win 3).blk t).view.read (Elt Ideal)
      (drop (actRow (N := 50000) (K := 256) (V c main_v56) (V c main_v57)) (V c main_arg3)) := by
  show (cfg3.win 3).cut (grid3.coords t) ((dat3 V c).after 3 t) = _
  rw [after3_3]
  unfold out3_3
  rw [View.canon_unit_zero origin]
  simp only [View.ld_unit_zero (S := S2000x256) origin, View.ld_unit_zero (S := S1x256) origin]
  obtain ⟨e0, e1, e2, e3, e4, e5, e6, e7⟩ := index_facts t
  funext j
  show k3_pay1 (iblk3 V c 0 t) (iblk3 V c 1 t) (iblk3 V c 2 t) j
      = drop (actRow (N := 50000) (K := 256) (V c main_v56) (V c main_v57)) (V c main_arg3) (((cfg3.win 3).blk t).view.emb j)
  obtain ⟨p, q, rfl⟩ : ∃ (p : Fin 2000) (q : Fin 256), j = ix2 p q := ⟨j 0, j 1, eq_ix2 j⟩
  refine (pay_apply (iblk3 V c 0 t) (iblk3 V c 1 t) (iblk3 V c 2 t) p q).trans ?_
  rw [Cert.DenseWhole.drop_actRow_at]
  -- the aggregate's and the draws' blocks move with the result's block
  have ha : iblk3 V c 0 t (ix2 p q) = V c main_v56 (((cfg3.win 3).blk t).view.emb (ix2 p q)) := by
    show V c main_v56 (((cfg3.win 0).blk t).view.emb (ix2 p q)) = _
    refine congrArg (V c main_v56) ?_
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * q.val = win3_3.index t (1 : Fin 2) * 256 + 1 * q.val; omega
  have hu : iblk3 V c 2 t (ix2 p q) = V c main_arg3 (((cfg3.win 3).blk t).view.emb (ix2 p q)) := by
    show V c main_arg3 (((cfg3.win 2).blk t).view.emb (ix2 p q)) = _
    refine congrArg (V c main_arg3) ?_
    funext a; apply Fin.ext
    match a with
    | ⟨0, _⟩ => show win3_2.index t (0 : Fin 2) * 2000 + 1 * p.val = win3_3.index t (0 : Fin 2) * 2000 + 1 * p.val; omega
    | ⟨1, _⟩ => show win3_2.index t (1 : Fin 2) * 256 + 1 * q.val = win3_3.index t (1 : Fin 2) * 256 + 1 * q.val; omega
  -- the bias' block is the whole row
  have hb : iblk3 V c 1 t (ix2 (0 : Fin 1) q)
      = V c main_v57 (ix2 (0 : Fin 1) (colOf (N := 50000) (K := 256) (((cfg3.win 3).blk t).view.emb (ix2 p q)))) := by
    show V c main_v57 (((cfg3.win 1).blk t).view.emb (ix2 (0 : Fin 1) q)) = _
    refine congrArg (V c main_v57) ?_
    funext a; apply Fin.ext
    match a with
    | ⟨0, _⟩ => show win3_1.index t (0 : Fin 2) * 1 + 1 * 0 = 0; omega
    | ⟨1, _⟩ => show win3_1.index t (1 : Fin 2) * 256 + 1 * q.val = win3_3.index t (1 : Fin 2) * 256 + 1 * q.val; omega
  rw [ha, hu, hb]

/-- An index of the result array is in point t's block iff each coordinate is in the block's range on its axis. -/
theorem mem_blk (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v58).slice (win3_3.rect t)).set ↔ _
  rw [View.set_slice_whole, Rect.mem_set_unit]
  exact Iff.rfl

/-- The 25 blocks of 2000 rows tile the 50000 rows: row r is in the block of point r / 2000. -/
theorem cover (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have ht : (i 0).val / 2000 < cfg3.N := by show (i 0).val / 2000 < grid3.N; rw [N_3]; omega
  obtain ⟨-, -, -, -, -, -, e6, e7⟩ := index_facts ⟨(i 0).val / 2000, ht⟩
  have e6' : win3_3.index ⟨(i 0).val / 2000, ht⟩ (0 : Fin 2) = (i 0).val / 2000 := e6
  refine ⟨⟨(i 0).val / 2000, ht⟩, flush3_3 _, ?_⟩
  rw [mem_blk]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e6']; omega
  | ⟨1, _⟩ =>
    show win3_3.index ⟨(i 0).val / 2000, ht⟩ (1 : Fin 2) * 256 ≤ (i 1).val
      ∧ (i 1).val < win3_3.index ⟨(i 0).val / 2000, ht⟩ (1 : Fin 2) * 256 + 256
    rw [e7]; omega

/-- After the region its output array is the stage applied to its three input arrays as the region found them. -/
theorem value (c : Dev nD) :
    (dat3 V c).arrAt 3 cfg3.N
      = drop (actRow (N := 50000) (K := 256) (V c main_v56) (V c main_v57)) (V c main_arg3) :=
  (dat3 V c).arrAt_eq_of_cover 3 _ (fun t _ => flushed_eq V c t) cover

end Cert.KernelIdeal.Stage3

end
-- ==== Proof.Stage4.lean ====
/-
  The third dense stage. The region multiplies the previous layer's output, 2000 rows at a time, by the whole third weight matrix:
  grid point t reads rows 2000·t … 2000·t + 1999 of that output and all of the weights, and writes the same rows of the
  product. A row of a matrix product depends on that row of the left factor only, and the 25 blocks tile the 50000 rows,
  so after the region the output array is the whole product of the two arrays as the region found them.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the sum over the contracted axis. -/
theorem pay_apply (x0 : Vec Ideal S2000x256 .f32) (x1 : Vec Ideal S256x128 .f32) (p : Fin 2000) (q : Fin 128) :
    k4_pay1 x0 x1 (ix2 p q) = ∑ k : Fin 256, x0 (ix2 p k) * x1 (ix2 k q) := by
  unfold k4_pay1
  -- the left block is first cast to its own shape, which changes nothing
  simp only [shapeCast_self]
  exact Cert.Dense.tileProduct_apply 2000 256 128 none _ _ x0 x1 p q

/-- The printed index maps over the grid: the feature block and the product block are block t of their arrays, the
    weights' block is the whole matrix. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the product of the two arrays. -/
theorem flushed_eq (c : Dev nD) (t : Fin cfg4.N) :
    (dat4 V c).flushed 2 t = ((cfg4.win 2).blk t).view.read (Elt Ideal)
      (Cert.Dense.mm (N := 50000) (K := 256) (C := 128) (V c main_v58) (V c main_arg9)) := by
  show (cfg4.win 2).cut (grid4.coords t) ((dat4 V c).after 2 t) = _
  rw [after4_2]
  unfold out4_2
  rw [View.canon_unit_zero origin]
  simp only [View.ld_unit_zero (S := S2000x256) origin, View.ld_unit_zero (S := S256x128) origin]
  obtain ⟨e0, e1, e2, e3, e4, e5⟩ := index_facts t
  funext j
  show k4_pay1 (iblk4 V c 0 t) (iblk4 V c 1 t) j
      = Cert.Dense.mm (N := 50000) (K := 256) (C := 128) (V c main_v58) (V c main_arg9) (((cfg4.win 2).blk t).view.emb j)
  obtain ⟨p, q, rfl⟩ : ∃ (p : Fin 2000) (q : Fin 128), j = ix2 p q := ⟨j 0, j 1, eq_ix2 j⟩
  refine (pay_apply (iblk4 V c 0 t) (iblk4 V c 1 t) p q).trans ?_
  rw [Cert.DenseWhole.mm_at]
  refine Finset.sum_congr rfl fun k _ => ?_
  -- the feature block's row p is row 2000·t + p of the array, as the product block's is
  have hx : iblk4 V c 0 t (ix2 p k)
      = V c main_v58 (ix2 (Cert.Dense.rowOf (N := 50000) (K := 128) (((cfg4.win 2).blk t).view.emb (ix2 p q))) k) := by
    show V c main_v58 (((cfg4.win 0).blk t).view.emb (ix2 p k)) = _
    refine congrArg (V c main_v58) ?_
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 256 + 1 * k.val = k.val; omega
  -- the weights' block is the whole matrix
  have hw : iblk4 V c 1 t (ix2 k q)
      = V c main_arg9 (ix2 k (Cert.Dense.colOf (N := 50000) (K := 128) (((cfg4.win 2).blk t).view.emb (ix2 p q)))) := by
    show V c main_arg9 (((cfg4.win 1).blk t).view.emb (ix2 k q)) = _
    refine congrArg (V c main_arg9) ?_
    funext a; apply Fin.ext
    match a with
    | ⟨0, _⟩ => show win4_1.index t (0 : Fin 2) * 256 + 1 * k.val = k.val; omega
    | ⟨1, _⟩ => show win4_1.index t (1 : Fin 2) * 128 + 1 * q.val = win4_2.index t (1 : Fin 2) * 128 + 1 * q.val; omega
  rw [hx, hw]

/-- An index of the product array is in point t's block iff each coordinate is in the block's range on its axis. -/
theorem mem_blk (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v59).slice (win4_2.rect t)).set ↔ _
  rw [View.set_slice_whole, Rect.mem_set_unit]
  exact Iff.rfl

/-- The 25 blocks of 2000 rows tile the 50000 rows: row r is in the block of point r / 2000. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have ht : (i 0).val / 2000 < cfg4.N := by show (i 0).val / 2000 < grid4.N; rw [N_4]; omega
  obtain ⟨-, -, -, -, e4, e5⟩ := index_facts ⟨(i 0).val / 2000, ht⟩
  have e4' : win4_2.index ⟨(i 0).val / 2000, ht⟩ (0 : Fin 2) = (i 0).val / 2000 := e4
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e4']; omega
  | ⟨1, _⟩ =>
    show win4_2.index ⟨(i 0).val / 2000, ht⟩ (1 : Fin 2) * 128 ≤ (i 1).val
      ∧ (i 1).val < win4_2.index ⟨(i 0).val / 2000, ht⟩ (1 : Fin 2) * 128 + 128
    rw [e5]; omega

/-- After the region its output array is the product of its two input arrays as the region found them. -/
theorem value (c : Dev nD) :
    (dat4 V c).arrAt 2 cfg4.N = Cert.Dense.mm (N := 50000) (K := 256) (C := 128) (V c main_v58) (V c main_arg9) :=
  (dat4 V c).arrAt_eq_of_cover 2 _ (fun t _ => flushed_eq V c t) cover

end Cert.KernelIdeal.Stage4

end
-- ==== Proof.Stage5.lean ====
/-
  The third bias stage. The region adds the bias to the aggregated features, applies the rectifier and inverted dropout,
  2000 rows at a time: grid point t reads rows 2000·t … 2000·t + 1999 of the aggregate and of the uniform draws and the
  whole one-row bias, and writes the same rows of the result. Every entry depends on the same entry of the aggregate and
  of the draws and on the bias entry of its column, and the 25 blocks tile the 50000 rows, so after the region the output
  array is max(a + b, 0) · keep(u) · 2 of the three arrays as the region found them, entry by entry.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage5

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense Cert.LibDropout

variable (V : (c : Dev nD) → (b : Ref sig .tc) → Buf (Elt Ideal) ((c : Thread nD τ).loc b))

theorem origin : (![0, 0] : Fin 2 → Nat) = fun _ => 0 := funext fun a => by fin_cases a <;> rfl

/-- One entry of a block's result. -/
theorem pay_apply (x0 : Vec Ideal S2000x128 .f32) (x1 : Vec Ideal S1x128 .f32) (x2 : Vec Ideal S2000x128 .f32)
    (p : Fin 2000) (q : Fin 128) :
    k5_pay1 x0 x1 x2 (ix2 p q)
      = max (x0 (ix2 p q) + x1 (ix2 (0 : Fin 1) q)) 0 * keep (x2 (ix2 p q)) * Ideal.ofBits .f32 0x40000000#32 := by
  unfold k5_pay1
  exact Cert.DenseWhole.tileActDrop_apply 2000 128 _ _ _ _ x0 x1 x2 p q

/-- The printed index maps over the grid: the aggregate's, the draws' and the result's block are block t of their
    arrays, the bias' block is the whole row. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What grid point t writes back is block t of the stage applied to the three arrays. -/
theorem flushed_eq (c : Dev nD) (t : Fin cfg5.N) :
    (dat5 V c).flushed 3 t = ((cfg5.win 3).blk t).view.read (Elt Ideal)
      (drop (actRow (N := 50000) (K := 128) (V c main_v72) (V c main_v73)) (V c main_arg4)) := by
  show (cfg5.win 3).cut (grid5.coords t) ((dat5 V c).after 3 t) = _
  rw [after5_3]
  unfold out5_3
  rw [View.canon_unit_zero origin]
  simp only [View.ld_unit_zero (S := S2000x128) origin, View.ld_unit_zero (S := S1x128) origin]
  obtain ⟨e0, e1, e2, e3, e4, e5, e6, e7⟩ := index_facts t
  funext j
  show k5_pay1 (iblk5 V c 0 t) (iblk5 V c 1 t) (iblk5 V c 2 t) j
      = drop (actRow (N := 50000) (K := 128) (V c main_v72) (V c main_v73)) (V c main_arg4) (((cfg5.win 3).blk t).view.emb j)
  obtain ⟨p, q, rfl⟩ : ∃ (p : Fin 2000) (q : Fin 128), j = ix2 p q := ⟨j 0, j 1, eq_ix2 j⟩
  refine (pay_apply (iblk5 V c 0 t) (iblk5 V c 1 t) (iblk5 V c 2 t) p q).trans ?_
  rw [Cert.DenseWhole.drop_actRow_at]
  -- the aggregate's and the draws' blocks move with the result's block
  have ha : iblk5 V c 0 t (ix2 p q) = V c main_v72 (((cfg5.win 3).blk t).view.emb (ix2 p q)) := by
    show V c main_v72 (((cfg5.win 0).blk t).view.emb (ix2 p q)) = _
    refine congrArg (V c main_v72) ?_
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  have hu : iblk5 V c 2 t (ix2 p q) = V c main_arg4 (((cfg5.win 3).blk t).view.emb (ix2 p q)) := by
    show V c main_arg4 (((cfg5.win 2).blk t).view.emb (ix2 p q)) = _
    refine congrArg (V c main_arg4) ?_
    funext a; apply Fin.ext
    match a with
    | ⟨0, _⟩ => show win5_2.index t (0 : Fin 2) * 2000 + 1 * p.val = win5_3.index t (0 : Fin 2) * 2000 + 1 * p.val; omega
    | ⟨1, _⟩ => show win5_2.index t (1 : Fin 2) * 128 + 1 * q.val = win5_3.index t (1 : Fin 2) * 128 + 1 * q.val; omega
  -- the bias' block is the whole row
  have hb : iblk5 V c 1 t (ix2 (0 : Fin 1) q)
      = V c main_v73 (ix2 (0 : Fin 1) (colOf (N := 50000) (K := 128) (((cfg5.win 3).blk t).view.emb (ix2 p q)))) := by
    show V c main_v73 (((cfg5.win 1).blk t).view.emb (ix2 (0 : Fin 1) q)) = _
    refine congrArg (V c main_v73) ?_
    funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  rw [ha, hu, hb]

/-- An index of the result array is in point t's block iff each coordinate is in the block's range on its axis. -/
theorem mem_blk (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v74).slice (win5_3.rect t)).set ↔ _
  rw [View.set_slice_whole, Rect.mem_set_unit]
  exact Iff.rfl

/-- The 25 blocks of 2000 rows tile the 50000 rows: row r is in the block of point r / 2000. -/
theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have ht : (i 0).val / 2000 < cfg5.N := by show (i 0).val / 2000 < grid5.N; rw [N_5]; omega
  obtain ⟨-, -, -, -, -, -, e6, e7⟩ := index_facts ⟨(i 0).val / 2000, ht⟩
  have e6' : win5_3.index ⟨(i 0).val / 2000, ht⟩ (0 : Fin 2) = (i 0).val / 2000 := e6
  refine ⟨⟨(i 0).val / 2000, ht⟩, flush5_3 _, ?_⟩
  rw [mem_blk]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e6']; omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    rw [e7]; omega

/-- After the region its output array is the stage applied to its three input arrays as the region found them. -/
theorem value (c : Dev nD) :
    (dat5 V c).arrAt 3 cfg5.N
      = drop (actRow (N := 50000) (K := 128) (V c main_v72) (V c main_v73)) (V c main_arg4) :=
  (dat5 V c).arrAt_eq_of_cover 3 _ (fun t _ => flushed_eq V c t) cover

end Cert.KernelIdeal.Stage5

end
-- ==== Proof.Stage6.lean ====
/-
  The fourth dense stage. The region multiplies the previous layer's output, 2000 rows at a time, by the whole fourth weight matrix:
  grid point t reads rows 2000·t … 2000·t + 1999 of that output and all of the weights, and writes the same rows of the
  product. A row of a matrix product depends on that row of the left factor only, and the 25 blocks tile the 50000 rows,
  so after the region the output array is the whole product of the two arrays as the region found them.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage6

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the sum over the contracted axis. -/
theorem pay_apply (x0 : Vec Ideal S2000x128 .f32) (x1 : Vec Ideal S128x2 .f32) (p : Fin 2000) (q : Fin 2) :
    k6_pay1 x0 x1 (ix2 p q) = ∑ k : Fin 128, x0 (ix2 p k) * x1 (ix2 k q) := by
  unfold k6_pay1
  -- the left block is first cast to its own shape, which changes nothing
  simp only [shapeCast_self]
  exact Cert.Dense.tileProduct_apply 2000 128 2 none _ _ x0 x1 p q

/-- The printed index maps over the grid: the feature block and the product block are block t of their arrays, the
    weights' block is the whole matrix. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point t writes back is block t of the product of the two arrays. -/
theorem flushed_eq (c : Dev nD) (t : Fin cfg6.N) :
    (dat6 V c).flushed 2 t = ((cfg6.win 2).blk t).view.read (Elt Ideal)
      (Cert.Dense.mm (N := 50000) (K := 128) (C := 2) (V c main_v74) (V c main_arg11)) := by
  show (cfg6.win 2).cut (grid6.coords t) ((dat6 V c).after 2 t) = _
  rw [after6_2]
  unfold out6_2
  rw [View.canon_unit_zero origin]
  simp only [View.ld_unit_zero (S := S2000x128) origin, View.ld_unit_zero (S := S128x2) origin]
  obtain ⟨e0, e1, e2, e3, e4, e5⟩ := index_facts t
  funext j
  show k6_pay1 (iblk6 V c 0 t) (iblk6 V c 1 t) j
      = Cert.Dense.mm (N := 50000) (K := 128) (C := 2) (V c main_v74) (V c main_arg11) (((cfg6.win 2).blk t).view.emb j)
  obtain ⟨p, q, rfl⟩ : ∃ (p : Fin 2000) (q : Fin 2), j = ix2 p q := ⟨j 0, j 1, eq_ix2 j⟩
  refine (pay_apply (iblk6 V c 0 t) (iblk6 V c 1 t) p q).trans ?_
  rw [Cert.DenseWhole.mm_at]
  refine Finset.sum_congr rfl fun k _ => ?_
  -- the feature block's row p is row 2000·t + p of the array, as the product block's is
  have hx : iblk6 V c 0 t (ix2 p k)
      = V c main_v74 (ix2 (Cert.Dense.rowOf (N := 50000) (K := 2) (((cfg6.win 2).blk t).view.emb (ix2 p q))) k) := by
    show V c main_v74 (((cfg6.win 0).blk t).view.emb (ix2 p k)) = _
    refine congrArg (V c main_v74) ?_
    funext a; apply Fin.ext
    match a with
    | ⟨0, _⟩ => show win6_0.index t (0 : Fin 2) * 2000 + 1 * p.val = win6_2.index t (0 : Fin 2) * 2000 + 1 * p.val; omega
    | ⟨1, _⟩ => show win6_0.index t (1 : Fin 2) * 128 + 1 * k.val = k.val; omega
  -- the weights' block is the whole matrix
  have hw : iblk6 V c 1 t (ix2 k q)
      = V c main_arg11 (ix2 k (Cert.Dense.colOf (N := 50000) (K := 2) (((cfg6.win 2).blk t).view.emb (ix2 p q)))) := by
    show V c main_arg11 (((cfg6.win 1).blk t).view.emb (ix2 k q)) = _
    refine congrArg (V c main_arg11) ?_
    funext a; apply Fin.ext
    match a with
    | ⟨0, _⟩ => show win6_1.index t (0 : Fin 2) * 128 + 1 * k.val = k.val; omega
    | ⟨1, _⟩ => show win6_1.index t (1 : Fin 2) * 2 + 1 * q.val = win6_2.index t (1 : Fin 2) * 2 + 1 * q.val; omega
  rw [hx, hw]

/-- An index of the product array is in point t's block iff each coordinate is in the block's range on its axis. -/
theorem mem_blk (t : Fin cfg6.N) (i : S50000x2.Idx) :
    i ∈ ((cfg6.win 2).blk t).view.set ↔ ∀ a : Fin 2, win6_2.index t a * S2000x2.size a ≤ (i a).val
      ∧ (i a).val < win6_2.index t a * S2000x2.size a + S2000x2.size a := by
  show i ∈ ((View.whole main_v75).slice (win6_2.rect t)).set ↔ _
  rw [View.set_slice_whole, Rect.mem_set_unit]
  exact Iff.rfl

/-- The 25 blocks of 2000 rows tile the 50000 rows: row r is in the block of point r / 2000. -/
theorem cover (i : S50000x2.Idx) :
    ∃ t : Fin cfg6.N, (cfg6.win 2).flush t = true ∧ i ∈ ((cfg6.win 2).blk t).view.set := by
  have hi0 : (i 0).val < 50000 := (i 0).isLt
  have hi1 : (i 1).val < 2 := (i 1).isLt
  have ht : (i 0).val / 2000 < cfg6.N := by show (i 0).val / 2000 < grid6.N; rw [N_6]; omega
  obtain ⟨-, -, -, -, e4, e5⟩ := index_facts ⟨(i 0).val / 2000, ht⟩
  have e4' : win6_2.index ⟨(i 0).val / 2000, ht⟩ (0 : Fin 2) = (i 0).val / 2000 := e4
  refine ⟨⟨(i 0).val / 2000, ht⟩, flush6_2 _, ?_⟩
  rw [mem_blk]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    rw [e4']; omega
  | ⟨1, _⟩ =>
    show win6_2.index ⟨(i 0).val / 2000, ht⟩ (1 : Fin 2) * 2 ≤ (i 1).val
      ∧ (i 1).val < win6_2.index ⟨(i 0).val / 2000, ht⟩ (1 : Fin 2) * 2 + 2
    rw [e5]; omega

/-- After the region its output array is the product of its two input arrays as the region found them. -/
theorem value (c : Dev nD) :
    (dat6 V c).arrAt 2 cfg6.N = Cert.Dense.mm (N := 50000) (K := 128) (C := 2) (V c main_v74) (V c main_arg11) :=
  (dat6 V c).arrAt_eq_of_cover 2 _ (fun t _ => flushed_eq V c t) cover

end Cert.KernelIdeal.Stage6

end
-- ==== Proof.Stage7.lean ====
/-
  The fourth bias stage. The region adds the bias to the aggregated features and applies the rectifier, 2000 rows at a
  time: grid point t reads rows 2000·t … 2000·t + 1999 of the aggregate and the whole one-row bias, and writes the same
  rows of the result. Every entry depends on the same entry of the aggregate and on the bias entry of its column, and the
  25 blocks tile the 50000 rows, so after the region the output array is max(a + b, 0) of the two arrays as the region
  found them, entry by entry. This layer has no dropout.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage7

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense

variable (V : (c : Dev nD) → (b : Ref sig .tc) → Buf (Elt Ideal) ((c : Thread nD τ).loc b))

theorem origin : (![0, 0] : Fin 2 → Nat) = fun _ => 0 := funext fun a => by fin_cases a <;> rfl

/-- One entry of a block's result. -/
theorem pay_apply (x0 : Vec Ideal S2000x2 .f32) (x1 : Vec Ideal S1x2 .f32) (p : Fin 2000) (q : Fin 2) :
    k7_pay1 x0 x1 (ix2 p q) = max (x0 (ix2 p q) + x1 (ix2 (0 : Fin 1) q)) 0 := by
  unfold k7_pay1
  exact Cert.Dense.tileAct_apply 2000 2 _ _ _ x0 x1 p q

/-- The printed index maps over the grid: the aggregate's and the result's block are block t of their arrays, the
    bias' block is the whole row. -/
theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What grid point t writes back is block t of the stage applied to the two arrays. -/
theorem flushed_eq (c : Dev nD) (t : Fin cfg7.N) :
    (dat7 V c).flushed 2 t = ((cfg7.win 2).blk t).view.read (Elt Ideal)
      (actRow (N := 50000) (K := 2) (V c main_v88) (V c main_v89)) := by
  show (cfg7.win 2).cut (grid7.coords t) ((dat7 V c).after 2 t) = _
  rw [after7_2]
  unfold out7_2
  rw [View.canon_unit_zero origin]
  simp only [View.ld_unit_zero (S := S2000x2) origin, View.ld_unit_zero (S := S1x2) origin]
  obtain ⟨e0, e1, e2, e3, e4, e5⟩ := index_facts t
  funext j
  show k7_pay1 (iblk7 V c 0 t) (iblk7 V c 1 t) j
      = actRow (N := 50000) (K := 2) (V c main_v88) (V c main_v89) (((cfg7.win 2).blk t).view.emb j)
  obtain ⟨p, q, rfl⟩ : ∃ (p : Fin 2000) (q : Fin 2), j = ix2 p q := ⟨j 0, j 1, eq_ix2 j⟩
  refine (pay_apply (iblk7 V c 0 t) (iblk7 V c 1 t) p q).trans ?_
  rw [Cert.DenseWhole.actRow_at]
  -- the aggregate's block moves with the result's block
  have ha : iblk7 V c 0 t (ix2 p q) = V c main_v88 (((cfg7.win 2).blk t).view.emb (ix2 p q)) := by
    show V c main_v88 (((cfg7.win 0).blk t).view.emb (ix2 p q)) = _
    refine congrArg (V c main_v88) ?_
    funext a; apply Fin.ext
    match a with
    | ⟨0, _⟩ => show win7_0.index t (0 : Fin 2) * 2000 + 1 * p.val = win7_2.index t (0 : Fin 2) * 2000 + 1 * p.val; omega
    | ⟨1, _⟩ => show win7_0.index t (1 : Fin 2) * 2 + 1 * q.val = win7_2.index t (1 : Fin 2) * 2 + 1 * q.val; omega
  -- the bias' block is the whole row
  have hb : iblk7 V c 1 t (ix2 (0 : Fin 1) q)
      = V c main_v89 (ix2 (0 : Fin 1) (colOf (N := 50000) (K := 2) (((cfg7.win 2).blk t).view.emb (ix2 p q)))) := by
    show V c main_v89 (((cfg7.win 1).blk t).view.emb (ix2 (0 : Fin 1) q)) = _
    refine congrArg (V c main_v89) ?_
    funext a; apply Fin.ext
    match a with
    | ⟨0, _⟩ => show win7_1.index t (0 : Fin 2) * 1 + 1 * 0 = 0; omega
    | ⟨1, _⟩ => show win7_1.index t (1 : Fin 2) * 2 + 1 * q.val = win7_2.index t (1 : Fin 2) * 2 + 1 * q.val; omega
  rw [ha, hb]

/-- An index of the result array is in point t's block iff each coordinate is in the block's range on its axis. -/
theorem mem_blk (t : Fin cfg7.N) (i : S50000x2.Idx) :
    i ∈ ((cfg7.win 2).blk t).view.set ↔ ∀ a : Fin 2, win7_2.index t a * S2000x2.size a ≤ (i a).val
      ∧ (i a).val < win7_2.index t a * S2000x2.size a + S2000x2.size a := by
  show i ∈ ((View.whole main_v90).slice (win7_2.rect t)).set ↔ _
  rw [View.set_slice_whole, Rect.mem_set_unit]
  exact Iff.rfl

/-- The 25 blocks of 2000 rows tile the 50000 rows: row r is in the block of point r / 2000. -/
theorem cover (i : S50000x2.Idx) :
    ∃ t : Fin cfg7.N, (cfg7.win 2).flush t = true ∧ i ∈ ((cfg7.win 2).blk t).view.set := by
  have hi0 : (i 0).val < 50000 := (i 0).isLt
  have hi1 : (i 1).val < 2 := (i 1).isLt
  have ht : (i 0).val / 2000 < cfg7.N := by show (i 0).val / 2000 < grid7.N; rw [N_7]; omega
  obtain ⟨-, -, -, -, e4, e5⟩ := index_facts ⟨(i 0).val / 2000, ht⟩
  have e4' : win7_2.index ⟨(i 0).val / 2000, ht⟩ (0 : Fin 2) = (i 0).val / 2000 := e4
  refine ⟨⟨(i 0).val / 2000, ht⟩, flush7_2 _, ?_⟩
  rw [mem_blk]
  intro a
  match a with
  | ⟨0, _⟩ =>
    show win7_2.index ⟨(i 0).val / 2000, ht⟩ (0 : Fin 2) * 2000 ≤ (i 0).val
      ∧ (i 0).val < win7_2.index ⟨(i 0).val / 2000, ht⟩ (0 : Fin 2) * 2000 + 2000
    rw [e4']; omega
  | ⟨1, _⟩ =>
    show win7_2.index ⟨(i 0).val / 2000, ht⟩ (1 : Fin 2) * 2 ≤ (i 1).val
      ∧ (i 1).val < win7_2.index ⟨(i 0).val / 2000, ht⟩ (1 : Fin 2) * 2 + 2
    rw [e5]; omega

/-- After the region its output array is the stage applied to its two input arrays as the region found them. -/
theorem value (c : Dev nD) :
    (dat7 V c).arrAt 2 cfg7.N = actRow (N := 50000) (K := 2) (V c main_v88) (V c main_v89) :=
  (dat7 V c).arrAt_eq_of_cover 2 _ (fun t _ => flushed_eq V c t) cover

end Cert.KernelIdeal.Stage7

end
-- ==== Proof.Stage8.lean ====
/-
  The fifth dense stage. The region multiplies the previous layer's output, 2000 rows at a time, by the whole fifth weight matrix:
  grid point t reads rows 2000·t … 2000·t + 1999 of that output and all of the weights, and writes the same rows of the
  product. A row of a matrix product depends on that row of the left factor only, and the 25 blocks tile the 50000 rows,
  so after the region the output array is the whole product of the two arrays as the region found them.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage8

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the sum over the contracted axis. -/
theorem pay_apply (x0 : Vec Ideal S2000x2 .f32) (x1 : Vec Ideal S2x1 .f32) (p : Fin 2000) (q : Fin 1) :
    k8_pay1 x0 x1 (ix2 p q) = ∑ k : Fin 2, x0 (ix2 p k) * x1 (ix2 k q) := by
  unfold k8_pay1
  -- the left block is first cast to its own shape, which changes nothing
  simp only [shapeCast_self]
  exact Cert.Dense.tileProduct_apply 2000 2 1 none _ _ x0 x1 p q

/-- The printed index maps over the grid: the feature block and the product block are block t of their arrays, the
    weights' block is the whole matrix. -/
theorem index_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What grid point t writes back is block t of the product of the two arrays. -/
theorem flushed_eq (c : Dev nD) (t : Fin cfg8.N) :
    (dat8 V c).flushed 2 t = ((cfg8.win 2).blk t).view.read (Elt Ideal)
      (Cert.Dense.mm (N := 50000) (K := 2) (C := 1) (V c main_v90) (V c main_arg13)) := by
  show (cfg8.win 2).cut (grid8.coords t) ((dat8 V c).after 2 t) = _
  rw [after8_2]
  unfold out8_2
  rw [View.canon_unit_zero origin]
  simp only [View.ld_unit_zero (S := S2000x2) origin, View.ld_unit_zero (S := S2x1) origin]
  obtain ⟨e0, e1, e2, e3, e4, e5⟩ := index_facts t
  funext j
  show k8_pay1 (iblk8 V c 0 t) (iblk8 V c 1 t) j
      = Cert.Dense.mm (N := 50000) (K := 2) (C := 1) (V c main_v90) (V c main_arg13) (((cfg8.win 2).blk t).view.emb j)
  obtain ⟨p, q, rfl⟩ : ∃ (p : Fin 2000) (q : Fin 1), j = ix2 p q := ⟨j 0, j 1, eq_ix2 j⟩
  refine (pay_apply (iblk8 V c 0 t) (iblk8 V c 1 t) p q).trans ?_
  rw [Cert.DenseWhole.mm_at]
  refine Finset.sum_congr rfl fun k _ => ?_
  -- the feature block's row p is row 2000·t + p of the array, as the product block's is
  have hx : iblk8 V c 0 t (ix2 p k)
      = V c main_v90 (ix2 (Cert.Dense.rowOf (N := 50000) (K := 1) (((cfg8.win 2).blk t).view.emb (ix2 p q))) k) := by
    show V c main_v90 (((cfg8.win 0).blk t).view.emb (ix2 p k)) = _
    refine congrArg (V c main_v90) ?_
    funext a; apply Fin.ext
    match a with
    | ⟨0, _⟩ => show win8_0.index t (0 : Fin 2) * 2000 + 1 * p.val = win8_2.index t (0 : Fin 2) * 2000 + 1 * p.val; omega
    | ⟨1, _⟩ => show win8_0.index t (1 : Fin 2) * 2 + 1 * k.val = k.val; omega
  -- the weights' block is the whole matrix
  have hw : iblk8 V c 1 t (ix2 k q)
      = V c main_arg13 (ix2 k (Cert.Dense.colOf (N := 50000) (K := 1) (((cfg8.win 2).blk t).view.emb (ix2 p q)))) := by
    show V c main_arg13 (((cfg8.win 1).blk t).view.emb (ix2 k q)) = _
    refine congrArg (V c main_arg13) ?_
    funext a; apply Fin.ext
    match a with
    | ⟨0, _⟩ => show win8_1.index t (0 : Fin 2) * 2 + 1 * k.val = k.val; omega
    | ⟨1, _⟩ => show win8_1.index t (1 : Fin 2) * 1 + 1 * q.val = win8_2.index t (1 : Fin 2) * 1 + 1 * q.val; omega
  rw [hx, hw]

/-- An index of the product array is in point t's block iff each coordinate is in the block's range on its axis. -/
theorem mem_blk (t : Fin cfg8.N) (i : S50000x1.Idx) :
    i ∈ ((cfg8.win 2).blk t).view.set ↔ ∀ a : Fin 2, win8_2.index t a * S2000x1.size a ≤ (i a).val
      ∧ (i a).val < win8_2.index t a * S2000x1.size a + S2000x1.size a := by
  show i ∈ ((View.whole main_v91).slice (win8_2.rect t)).set ↔ _
  rw [View.set_slice_whole, Rect.mem_set_unit]
  exact Iff.rfl

/-- The 25 blocks of 2000 rows tile the 50000 rows: row r is in the block of point r / 2000. -/
theorem cover (i : S50000x1.Idx) :
    ∃ t : Fin cfg8.N, (cfg8.win 2).flush t = true ∧ i ∈ ((cfg8.win 2).blk t).view.set := by
  have hi0 : (i 0).val < 50000 := (i 0).isLt
  have hi1 : (i 1).val < 1 := (i 1).isLt
  have ht : (i 0).val / 2000 < cfg8.N := by show (i 0).val / 2000 < grid8.N; rw [N_8]; omega
  obtain ⟨-, -, -, -, e4, e5⟩ := index_facts ⟨(i 0).val / 2000, ht⟩
  have e4' : win8_2.index ⟨(i 0).val / 2000, ht⟩ (0 : Fin 2) = (i 0).val / 2000 := e4
  refine ⟨⟨(i 0).val / 2000, ht⟩, flush8_2 _, ?_⟩
  rw [mem_blk]
  intro a
  match a with
  | ⟨0, _⟩ =>
    show win8_2.index ⟨(i 0).val / 2000, ht⟩ (0 : Fin 2) * 2000 ≤ (i 0).val
      ∧ (i 0).val < win8_2.index ⟨(i 0).val / 2000, ht⟩ (0 : Fin 2) * 2000 + 2000
    rw [e4']; omega
  | ⟨1, _⟩ =>
    show win8_2.index ⟨(i 0).val / 2000, ht⟩ (1 : Fin 2) * 1 ≤ (i 1).val
      ∧ (i 1).val < win8_2.index ⟨(i 0).val / 2000, ht⟩ (1 : Fin 2) * 1 + 1
    rw [e5]; omega

/-- After the region its output array is the product of its two input arrays as the region found them. -/
theorem value (c : Dev nD) :
    (dat8 V c).arrAt 2 cfg8.N = Cert.Dense.mm (N := 50000) (K := 2) (C := 1) (V c main_v90) (V c main_arg13) :=
  (dat8 V c).arrAt_eq_of_cover 2 _ (fun t _ => flushed_eq V c t) cover

end Cert.KernelIdeal.Stage8

end
-- ==== Proof.Stage9.lean ====
/-
  The fifth bias stage. The region adds the bias to the aggregated features and applies the rectifier, 2000 rows at a
  time: grid point t reads rows 2000·t … 2000·t + 1999 of the aggregate and the whole one-row bias, and writes the same
  rows of the result. Every entry depends on the same entry of the aggregate and on the bias entry of its column, and the
  25 blocks tile the 50000 rows, so after the region the output array is max(a + b, 0) of the two arrays as the region
  found them, entry by entry. This layer has no dropout.
-/
import proofs.«151999_j8959301779746_1_alg».proof.Proof.Gen.KernelIdeal.Frame
import proofs.«151999_j8959301779746_1_alg».proof.Proof.LibDenseWhole
import Idealize.ShloMosaic.Lib.Pipeline.Value
import Idealize.ShloMosaic.Lib.ValueIdx

set_option maxRecDepth 16384

noncomputable section

namespace Cert.KernelIdeal.Stage9

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Dense

variable (V : (c : Dev nD) → (b : Ref sig .tc) → Buf (Elt Ideal) ((c : Thread nD τ).loc b))

theorem origin : (![0, 0] : Fin 2 → Nat) = fun _ => 0 := funext fun a => by fin_cases a <;> rfl

/-- One entry of a block's result. -/
theorem pay_apply (x0 : Vec Ideal S2000x1 .f32) (x1 : Vec Ideal S1x1 .f32) (p : Fin 2000) (q : Fin 1) :
    k9_pay1 x0 x1 (ix2 p q) = max (x0 (ix2 p q) + x1 (ix2 (0 : Fin 1) q)) 0 := by
  unfold k9_pay1
  exact Cert.Dense.tileAct_apply 2000 1 _ _ _ x0 x1 p q

/-- The printed index maps over the grid: the aggregate's and the result's block are block t of their arrays, the
    bias' block is the whole row. -/
theorem index_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What grid point t writes back is block t of the stage applied to the two arrays. -/
theorem flushed_eq (c : Dev nD) (t : Fin cfg9.N) :
    (dat9 V c).flushed 2 t = ((cfg9.win 2).blk t).view.read (Elt Ideal)
      (actRow (N := 50000) (K := 1) (V c main_v103) (V c main_v104)) := by
  show (cfg9.win 2).cut (grid9.coords t) ((dat9 V c).after 2 t) = _
  rw [after9_2]
  unfold out9_2
  rw [View.canon_unit_zero origin]
  simp only [View.ld_unit_zero (S := S2000x1) origin, View.ld_unit_zero (S := S1x1) origin]
  obtain ⟨e0, e1, e2, e3, e4, e5⟩ := index_facts t
  funext j
  show k9_pay1 (iblk9 V c 0 t) (iblk9 V c 1 t) j
      = actRow (N := 50000) (K := 1) (V c main_v103) (V c main_v104) (((cfg9.win 2).blk t).view.emb j)
  obtain ⟨p, q, rfl⟩ : ∃ (p : Fin 2000) (q : Fin 1), j = ix2 p q := ⟨j 0, j 1, eq_ix2 j⟩
  refine (pay_apply (iblk9 V c 0 t) (iblk9 V c 1 t) p q).trans ?_
  rw [Cert.DenseWhole.actRow_at]
  -- the aggregate's block moves with the result's block
  have ha : iblk9 V c 0 t (ix2 p q) = V c main_v103 (((cfg9.win 2).blk t).view.emb (ix2 p q)) := by
    show V c main_v103 (((cfg9.win 0).blk t).view.emb (ix2 p q)) = _
    refine congrArg (V c main_v103) ?_
    funext a; apply Fin.ext
    match a with
    | ⟨0, _⟩ => show win9_0.index t (0 : Fin 2) * 2000 + 1 * p.val = win9_2.index t (0 : Fin 2) * 2000 + 1 * p.val; omega
    | ⟨1, _⟩ => show win9_0.index t (1 : Fin 2) * 1 + 1 * q.val = win9_2.index t (1 : Fin 2) * 1 + 1 * q.val; omega
  -- the bias' block is the whole row
  have hb : iblk9 V c 1 t (ix2 (0 : Fin 1) q)
      = V c main_v104 (ix2 (0 : Fin 1) (colOf (N := 50000) (K := 1) (((cfg9.win 2).blk t).view.emb (ix2 p q)))) := by
    show V c main_v104 (((cfg9.win 1).blk t).view.emb (ix2 (0 : Fin 1) q)) = _
    refine congrArg (V c main_v104) ?_
    funext a; apply Fin.ext
    match a with
    | ⟨0, _⟩ => show win9_1.index t (0 : Fin 2) * 1 + 1 * 0 = 0; omega
    | ⟨1, _⟩ => show win9_1.index t (1 : Fin 2) * 1 + 1 * q.val = win9_2.index t (1 : Fin 2) * 1 + 1 * q.val; omega
  rw [ha, hb]

/-- An index of the result array is in point t's block iff each coordinate is in the block's range on its axis. -/
theorem mem_blk (t : Fin cfg9.N) (i : S50000x1.Idx) :
    i ∈ ((cfg9.win 2).blk t).view.set ↔ ∀ a : Fin 2, win9_2.index t a * S2000x1.size a ≤ (i a).val
      ∧ (i a).val < win9_2.index t a * S2000x1.size a + S2000x1.size a := by
  show i ∈ ((View.whole main_v105).slice (win9_2.rect t)).set ↔ _
  rw [View.set_slice_whole, Rect.mem_set_unit]
  exact Iff.rfl

/-- The 25 blocks of 2000 rows tile the 50000 rows: row r is in the block of point r / 2000. -/
theorem cover (i : S50000x1.Idx) :
    ∃ t : Fin cfg9.N, (cfg9.win 2).flush t = true ∧ i ∈ ((cfg9.win 2).blk t).view.set := by
  have hi0 : (i 0).val < 50000 := (i 0).isLt
  have hi1 : (i 1).val < 1 := (i 1).isLt
  have ht : (i 0).val / 2000 < cfg9.N := by show (i 0).val / 2000 < grid9.N; rw [N_9]; omega
  obtain ⟨-, -, -, -, e4, e5⟩ := index_facts ⟨(i 0).val / 2000, ht⟩
  have e4' : win9_2.index ⟨(i 0).val / 2000, ht⟩ (0 : Fin 2) = (i 0).val / 2000 := e4
  refine ⟨⟨(i 0).val / 2000, ht⟩, flush9_2 _, ?_⟩
  rw [mem_blk]
  intro a
  match a with
  | ⟨0, _⟩ =>
    show win9_2.index ⟨(i 0).val / 2000, ht⟩ (0 : Fin 2) * 2000 ≤ (i 0).val
      ∧ (i 0).val < win9_2.index ⟨(i 0).val / 2000, ht⟩ (0 : Fin 2) * 2000 + 2000
    rw [e4']; omega
  | ⟨1, _⟩ =>
    show win9_2.index ⟨(i 0).val / 2000, ht⟩ (1 : Fin 2) * 1 ≤ (i 1).val
      ∧ (i 1).val < win9_2.index ⟨(i 0).val / 2000, ht⟩ (1 : Fin 2) * 1 + 1
    rw [e5]; omega

/-- After the region its output array is the stage applied to its two input arrays as the region found them. -/
theorem value (c : Dev nD) :
    (dat9 V c).arrAt 2 cfg9.N = actRow (N := 50000) (K := 1) (V c main_v103) (V c main_v104) :=
  (dat9 V c).arrAt_eq_of_cover 2 _ (fun t _ => flushed_eq V c t) cover

end Cert.KernelIdeal.Stage9

end
-- ==== Proof.Bridge.lean ====
/-
  The kernel program's result as the reference's. The contents of the kernel program's buffers at the boundaries between
  its regions and its stretches of host operations are followed from the launch to the return, and at each boundary the
  value just produced is identified with the matching stage of the reference program applied to the argument arrays:

    the edge lists with their self-loops and the per-edge normalisation, after the first stretch: the same operations;
    each region that multiplies by a weight matrix: the matrix product, which is the reference's host product;
    each stretch that gathers, scales and sums over the edges: the same operations on equal inputs;
    each region that adds the bias, rectifies and drops out: the same function, the bias reaching the region as a
      one-row matrix that is the bias vector reshaped.

  Nothing here uses arithmetic beyond those identifications: the two programs compute the same expression.
-/
import proofs.«151999_j8959301779746_1_alg».proof.Defs
import proofs.«151999_j8959301779746_1_alg».proof.Proof.Gen.KernelIdeal.Frame
import proofs.«151999_j8959301779746_1_alg».proof.Proof.Gen.ReferenceIdeal.Read
import proofs.«151999_j8959301779746_1_alg».proof.Proof.Carry
import proofs.«151999_j8959301779746_1_alg».proof.Proof.RefSide
import proofs.«151999_j8959301779746_1_alg».proof.Proof.Stage0
import proofs.«151999_j8959301779746_1_alg».proof.Proof.Stage1
import proofs.«151999_j8959301779746_1_alg».proof.Proof.Stage2
import proofs.«151999_j8959301779746_1_alg».proof.Proof.Stage3
import proofs.«151999_j8959301779746_1_alg».proof.Proof.Stage4
import proofs.«151999_j8959301779746_1_alg».proof.Proof.Stage5
import proofs.«151999_j8959301779746_1_alg».proof.Proof.Stage6
import proofs.«151999_j8959301779746_1_alg».proof.Proof.Stage7
import proofs.«151999_j8959301779746_1_alg».proof.Proof.Stage8
import proofs.«151999_j8959301779746_1_alg».proof.Proof.Stage9
import Idealize.ShloMosaic.Lib.StableHlo.Run

set_option maxRecDepth 16384
-- the launch contents of the arguments are written x0 … x14 below; the notation's projection is not pre-checked
set_option quotPrecheck false

noncomputable section

namespace Cert.Bridge

open Cert.KernelIdeal Cert.KernelIdeal.Gen Cert.ReferenceIdeal.Read
open Idealize.ShloMosaic Idealize.ShloMosaic.TcCoe Idealize.ShloMosaic.StableHlo Idealize.SL.Sem
open Cert.Dense Cert.LibDropout

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)

/-! ## After the first stretch: the edge lists and the normalisation -/

set_option maxHeartbeats 4000000 in
/-- The source list with the self-loops appended. -/
theorem src1 : W1 m ρ c (Proc.devRef .tc main_v3) = val_main_v3 (F := Ideal) x1 := by
  show StableHlo.after hostOps0 (W0 m ρ c) (Proc.devRef .tc main_v3) = _
  after_results_simp
  rfl
set_option maxHeartbeats 4000000 in
/-- The destination list with the self-loops appended. -/
theorem dst1 : W1 m ρ c (Proc.devRef .tc main_v6) = val_main_v6 (F := Ideal) x1 := by
  show StableHlo.after hostOps0 (W0 m ρ c) (Proc.devRef .tc main_v6) = _
  after_results_simp
  rfl
set_option maxHeartbeats 4000000 in
/-- The per-edge normalisation: the inverse square roots of the two endpoints' degrees, multiplied. -/
theorem nrm1 : W1 m ρ c (Proc.devRef .tc main_v26) = val_main_v26 (F := Ideal) x1 := by
  show StableHlo.after hostOps0 (W0 m ρ c) (Proc.devRef .tc main_v26) = _
  after_results_simp
  rfl

/-! ## Layer 1 -/

theorem product1 : W2 m ρ c (Proc.devRef .tc main_v27) = val_main_v27 (F := Ideal) x0 x5 := by
  refine (W2_arr m ρ c 2).trans ((Stage0.value (V1 m ρ) c).trans ?_)
  rw [show V1 m ρ c main_arg0 = x0 from Carry.at1 m ρ c main_arg0 (by decide),
    show V1 m ρ c main_arg5 = x5 from Carry.at1 m ρ c main_arg5 (by decide)]
  exact (Cert.RefSide.product1 _ _).symm

set_option maxHeartbeats 4000000 in
theorem aggregate1 : W3 m ρ c (Proc.devRef .tc main_v40) = val_main_v40 (F := Ideal) x0 x1 x5 := by
  show StableHlo.after hostOps1 (W2 m ρ c) (Proc.devRef .tc main_v40) = _
  after_results_simp
  rw [product1 m ρ c, (Carry.at2 m ρ c main_v3 (by decide)).trans (src1 m ρ c),
    (Carry.at2 m ρ c main_v6 (by decide)).trans (dst1 m ρ c), (Carry.at2 m ρ c main_v26 (by decide)).trans (nrm1 m ρ c)]
  rfl

set_option maxHeartbeats 4000000 in
theorem biasRow1 : W3 m ρ c (Proc.devRef .tc main_v41) = shapeCast S1x128 x6 shapeCasts_S128_S1x128 := by
  show StableHlo.after hostOps1 (W2 m ρ c) (Proc.devRef .tc main_v41) = _
  after_results_simp
  rw [(Carry.at2 m ρ c main_arg6 (by decide)).trans (Carry.at1 m ρ c main_arg6 (by decide))]
  rfl

theorem bias1 : W4 m ρ c (Proc.devRef .tc main_v42) = val_main_v50 (F := Ideal) x0 x1 x2 x5 x6 := by
  refine (W4_arr m ρ c 3).trans ((Stage1.value (V3 m ρ) c).trans ?_)
  rw [show V3 m ρ c main_v40 = _ from aggregate1 m ρ c, show V3 m ρ c main_v41 = _ from biasRow1 m ρ c,
    show V3 m ρ c main_arg2 = x2 from (Carry.at3 m ρ c main_arg2 (by decide)).trans (Carry.at1 m ρ c main_arg2 (by decide))]
  rw [actRow_cast]
  exact (Cert.RefSide.bias1 _ _ _ _ _).symm

/-! ## Layer 2 -/

theorem product2 : W5 m ρ c (Proc.devRef .tc main_v43) = val_main_v51 (F := Ideal) x0 x1 x2 x5 x6 x7 := by
  refine (W5_arr m ρ c 2).trans ((Stage2.value (V4 m ρ) c).trans ?_)
  rw [show V4 m ρ c main_v42 = _ from bias1 m ρ c,
    show V4 m ρ c main_arg7 = x7 from (Carry.at4 m ρ c main_arg7 (by decide)).trans (Carry.at1 m ρ c main_arg7 (by decide))]
  exact (Cert.RefSide.product2 _ _ _ _ _ _).symm

set_option maxHeartbeats 4000000 in
theorem aggregate2 : W6 m ρ c (Proc.devRef .tc main_v56) = val_main_v64 (F := Ideal) x0 x1 x2 x5 x6 x7 := by
  show StableHlo.after hostOps3 (W5 m ρ c) (Proc.devRef .tc main_v56) = _
  after_results_simp
  rw [product2 m ρ c, (Carry.at5 m ρ c main_v3 (by decide)).trans (src1 m ρ c),
    (Carry.at5 m ρ c main_v6 (by decide)).trans (dst1 m ρ c), (Carry.at5 m ρ c main_v26 (by decide)).trans (nrm1 m ρ c)]
  rfl

set_option maxHeartbeats 4000000 in
theorem biasRow2 : W6 m ρ c (Proc.devRef .tc main_v57) = shapeCast S1x256 x8 shapeCasts_S256_S1x256 := by
  show StableHlo.after hostOps3 (W5 m ρ c) (Proc.devRef .tc main_v57) = _
  after_results_simp
  rw [(Carry.at5 m ρ c main_arg8 (by decide)).trans (Carry.at1 m ρ c main_arg8 (by decide))]
  rfl

theorem bias2 : W7 m ρ c (Proc.devRef .tc main_v58) = val_main_v74 (F := Ideal) x0 x1 x2 x3 x5 x6 x7 x8 := by
  refine (W7_arr m ρ c 3).trans ((Stage3.value (V6 m ρ) c).trans ?_)
  rw [show V6 m ρ c main_v56 = _ from aggregate2 m ρ c, show V6 m ρ c main_v57 = _ from biasRow2 m ρ c,
    show V6 m ρ c main_arg3 = x3 from (Carry.at6 m ρ c main_arg3 (by decide)).trans (Carry.at1 m ρ c main_arg3 (by decide))]
  rw [actRow_cast]
  exact (Cert.RefSide.bias2 _ _ _ _ _ _ _ _).symm

/-! ## Layer 3 -/

theorem product3 : W8 m ρ c (Proc.devRef .tc main_v59) = val_main_v75 (F := Ideal) x0 x1 x2 x3 x5 x6 x7 x8 x9 := by
  refine (W8_arr m ρ c 2).trans ((Stage4.value (V7 m ρ) c).trans ?_)
  rw [show V7 m ρ c main_v58 = _ from bias2 m ρ c,
    show V7 m ρ c main_arg9 = x9 from (Carry.at7 m ρ c main_arg9 (by decide)).trans (Carry.at1 m ρ c main_arg9 (by decide))]
  exact (Cert.RefSide.product3 _ _ _ _ _ _ _ _ _).symm

set_option maxHeartbeats 4000000 in
theorem aggregate3 : W9 m ρ c (Proc.devRef .tc main_v72) = val_main_v88 (F := Ideal) x0 x1 x2 x3 x5 x6 x7 x8 x9 := by
  show StableHlo.after hostOps5 (W8 m ρ c) (Proc.devRef .tc main_v72) = _
  after_results_simp
  rw [product3 m ρ c, (Carry.at8 m ρ c main_v3 (by decide)).trans (src1 m ρ c),
    (Carry.at8 m ρ c main_v6 (by decide)).trans (dst1 m ρ c), (Carry.at8 m ρ c main_v26 (by decide)).trans (nrm1 m ρ c)]
  rfl

set_option maxHeartbeats 4000000 in
theorem biasRow3 : W9 m ρ c (Proc.devRef .tc main_v73) = shapeCast S1x128 x10 shapeCasts_S128_S1x128 := by
  show StableHlo.after hostOps5 (W8 m ρ c) (Proc.devRef .tc main_v73) = _
  after_results_simp
  rw [(Carry.at8 m ρ c main_arg10 (by decide)).trans (Carry.at1 m ρ c main_arg10 (by decide))]
  rfl

theorem bias3 : W10 m ρ c (Proc.devRef .tc main_v74) = val_main_v98 (F := Ideal) x0 x1 x2 x3 x4 x5 x6 x7 x8 x9 x10 := by
  refine (W10_arr m ρ c 3).trans ((Stage5.value (V9 m ρ) c).trans ?_)
  rw [show V9 m ρ c main_v72 = _ from aggregate3 m ρ c, show V9 m ρ c main_v73 = _ from biasRow3 m ρ c,
    show V9 m ρ c main_arg4 = x4 from (Carry.at9 m ρ c main_arg4 (by decide)).trans (Carry.at1 m ρ c main_arg4 (by decide))]
  rw [actRow_cast]
  exact (Cert.RefSide.bias3 _ _ _ _ _ _ _ _ _ _ _).symm

/-! ## Layer 4 -/

theorem product4 : W11 m ρ c (Proc.devRef .tc main_v75) = val_main_v99 (F := Ideal) x0 x1 x2 x3 x4 x5 x6 x7 x8 x9 x10 x11 := by
  refine (W11_arr m ρ c 2).trans ((Stage6.value (V10 m ρ) c).trans ?_)
  rw [show V10 m ρ c main_v74 = _ from bias3 m ρ c,
    show V10 m ρ c main_arg11 = x11 from (Carry.at10 m ρ c main_arg11 (by decide)).trans (Carry.at1 m ρ c main_arg11 (by decide))]
  exact (Cert.RefSide.product4 _ _ _ _ _ _ _ _ _ _ _ _).symm

set_option maxHeartbeats 4000000 in
theorem aggregate4 : W12 m ρ c (Proc.devRef .tc main_v88) = val_main_v112 (F := Ideal) x0 x1 x2 x3 x4 x5 x6 x7 x8 x9 x10 x11 := by
  show StableHlo.after hostOps7 (W11 m ρ c) (Proc.devRef .tc main_v88) = _
  after_results_simp
  rw [product4 m ρ c, (Carry.at11 m ρ c main_v3 (by decide)).trans (src1 m ρ c),
    (Carry.at11 m ρ c main_v6 (by decide)).trans (dst1 m ρ c), (Carry.at11 m ρ c main_v26 (by decide)).trans (nrm1 m ρ c)]
  rfl

set_option maxHeartbeats 4000000 in
theorem biasRow4 : W12 m ρ c (Proc.devRef .tc main_v89) = shapeCast S1x2 x12 shapeCasts_S2_S1x2 := by
  show StableHlo.after hostOps7 (W11 m ρ c) (Proc.devRef .tc main_v89) = _
  after_results_simp
  rw [(Carry.at11 m ρ c main_arg12 (by decide)).trans (Carry.at1 m ρ c main_arg12 (by decide))]
  rfl

theorem bias4 : W13 m ρ c (Proc.devRef .tc main_v90) = val_main_v116 (F := Ideal) x0 x1 x2 x3 x4 x5 x6 x7 x8 x9 x10 x11 x12 := by
  refine (W13_arr m ρ c 2).trans ((Stage7.value (V12 m ρ) c).trans ?_)
  rw [show V12 m ρ c main_v88 = _ from aggregate4 m ρ c, show V12 m ρ c main_v89 = _ from biasRow4 m ρ c]
  rw [actRow_cast]
  exact (Cert.RefSide.bias4 _ _ _ _ _ _ _ _ _ _ _ _ _).symm

/-! ## Layer 5 -/

theorem product5 : W14 m ρ c (Proc.devRef .tc main_v91) = val_main_v117 (F := Ideal) x0 x1 x2 x3 x4 x5 x6 x7 x8 x9 x10 x11 x12 x13 := by
  refine (W14_arr m ρ c 2).trans ((Stage8.value (V13 m ρ) c).trans ?_)
  rw [show V13 m ρ c main_v90 = _ from bias4 m ρ c,
    show V13 m ρ c main_arg13 = x13 from (Carry.at13 m ρ c main_arg13 (by decide)).trans (Carry.at1 m ρ c main_arg13 (by decide))]
  exact (Cert.RefSide.product5 _ _ _ _ _ _ _ _ _ _ _ _ _ _).symm

set_option maxHeartbeats 4000000 in
theorem aggregate5 : W15 m ρ c (Proc.devRef .tc main_v103) = val_main_v129 (F := Ideal) x0 x1 x2 x3 x4 x5 x6 x7 x8 x9 x10 x11 x12 x13 := by
  show StableHlo.after hostOps9 (W14 m ρ c) (Proc.devRef .tc main_v103) = _
  after_results_simp
  rw [product5 m ρ c, (Carry.at14 m ρ c main_v3 (by decide)).trans (src1 m ρ c),
    (Carry.at14 m ρ c main_v6 (by decide)).trans (dst1 m ρ c), (Carry.at14 m ρ c main_v26 (by decide)).trans (nrm1 m ρ c)]
  rfl

set_option maxHeartbeats 4000000 in
theorem biasRow5 : W15 m ρ c (Proc.devRef .tc main_v104) = shapeCast S1x1 x14 shapeCasts_S1_S1x1 := by
  show StableHlo.after hostOps9 (W14 m ρ c) (Proc.devRef .tc main_v104) = _
  after_results_simp
  rw [(Carry.at14 m ρ c main_arg14 (by decide)).trans (Carry.at1 m ρ c main_arg14 (by decide))]
  rfl

/-- The kernel program's result buffer ends at the reference's last stage of the argument arrays. -/
theorem result : W16 m ρ c (Proc.devRef .tc main_v105) = val_main_v133 (F := Ideal) x0 x1 x2 x3 x4 x5 x6 x7 x8 x9 x10 x11 x12 x13 x14 := by
  refine (W16_arr m ρ c 2).trans ((Stage9.value (V15 m ρ) c).trans ?_)
  rw [show V15 m ρ c main_v103 = _ from aggregate5 m ρ c, show V15 m ρ c main_v104 = _ from biasRow5 m ρ c]
  rw [actRow_cast]
  exact (Cert.RefSide.bias5 _ _ _ _ _ _ _ _ _ _ _ _ _ _ _).symm

end Cert.Bridge

end
-- ==== Proof.lean ====
/-
  A five-layer graph convolution network on 50000 nodes and 800000 edges (self-loops added, symmetric normalisation by
  the inverse square roots of the degrees), computed two ways: a program whose dense stages — the five products by the
  weight matrices and the five bias / rectifier (/ dropout) stages — are tiled kernels of 2000 rows run among host
  operations that gather, scale and sum over the edges; and a reference that does everything by host operations.

  Read at exact (extended real) values the two are the same expression of the argument arrays. Narrowing a product's
  operands to half precision changes nothing there; a product accumulated from zero on the matrix unit, block of rows by
  block of rows, is the host's product; a bias reshaped to one row and broadcast down a block is the bias vector
  broadcast over the array; the dropout factor is 0 or 1 whichever way the one-bit comparison is converted. The edge
  aggregation is the same host operations in both programs, applied to equal values. No law of arithmetic that could
  fail at an infinity is used, so the finiteness of the inputs is never opened.

  The three runs: the kernel's two frames are the generated ones; the reference's is its generated run with the result
  forgotten. The idealisation pass rewrote no operation, so there is nothing to preserve. The value claim joins the kernel
  program's run with its result named (the contents of the result buffer at the last boundary of the fold through its
  regions and stretches) and the reference's run, through the identification of that contents with the reference's last
  stage of the same arguments.
-/
import proofs.«151999_j8959301779746_1_alg».proof.Defs
import proofs.«151999_j8959301779746_1_alg».proof.Proof.Gen.Kernel
import proofs.«151999_j8959301779746_1_alg».proof.Proof.Gen.Kernel.Frame
import proofs.«151999_j8959301779746_1_alg».proof.Proof.Gen.KernelIdeal
import proofs.«151999_j8959301779746_1_alg».proof.Proof.Gen.KernelIdeal.Frame
import proofs.«151999_j8959301779746_1_alg».proof.Proof.Gen.ReferenceIdeal
import proofs.«151999_j8959301779746_1_alg».proof.Proof.Gen.ReferenceIdeal.Run
import proofs.«151999_j8959301779746_1_alg».proof.Proof.Gen.ReferenceIdeal.Read
import proofs.«151999_j8959301779746_1_alg».proof.Proof.Gen.Pre_finite_inputs
import proofs.«151999_j8959301779746_1_alg».proof.Proof.KernelRun
import proofs.«151999_j8959301779746_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the same result array: the kernel program's result buffer holds the last boundary's
    contents, which is the reference's last stage of the kernel's arguments; the reference's holds its last stage of its
    own arguments, which agree with the kernel's. -/
theorem algebraic : Cert.algebraic_KernelIdeal_ReferenceIdeal := by
  intro m ρ m' ρ' _ hagree
  refine ⟨fun c => Cert.KernelIdeal.Gen.W16 m ρ c (Proc.devRef .tc Cert.KernelIdeal.main_v105),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v133_eq, h0, h1, h2, h3, h4, h5, h6, h7, h8, h9, h10, h11, h12, h13, h14]
  exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
